-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x192 : Shape := ⟨2, ![16384, 192]⟩
abbrev S16384x16384 : Shape := ⟨2, ![16384, 16384]⟩
abbrev S2x64x64 : Shape := ⟨3, ![2, 64, 64]⟩
abbrev S2x64 : Shape := ⟨2, ![2, 64]⟩
abbrev S192x64 : Shape := ⟨2, ![192, 64]⟩
abbrev S64 : Shape := ⟨1, ![64]⟩
abbrev S_ : Shape := ⟨0, ![]⟩

class Facts : Prop where
  bcast_S_S16384x192 : S_.BroadcastsInDim S16384x192 (![] : Fin 0 → Fin S16384x192.rank)
  reducesTo_S16384x192_S_d0_1 : S16384x192.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S192x64 .f32) (main_arg5 : FVec F S64 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S192x64 .f32 := Host.absf main_arg4
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16384x192 .f32) (main_arg1 : FVec F S16384x16384 .f32) (main_arg2 : FVec F S2x64x64 .f32) (main_arg3 : FVec F S2x64 .f32) (main_arg4 : FVec F S192x64 .f32) (main_arg5 : FVec F S64 .f32) : IVec S_ 1 :=
  let main_v0 : FVec F S16384x192 .f32 := Host.absf main_arg0
  let main_cst : FVec F S_ .f32 := constant S_ .f32 0x7F800000#32
  let main_v1 : FVec F S16384x192 .f32 := broadcastInDim S16384x192 ![] bcast_S_S16384x192 main_cst
  let main_v2 : IVec S16384x192 1 := cmpf .olt main_v0 main_v1
  let main_c : IVec S_ 1 := constantI S_ 1 1#1
  let main_v3 : IVec S_ 1 := (fun x v => Host.reduce IntOp.andi x v reducesTo_S16384x192_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S2x64x64 .f32 := Host.absf main_arg2
  let main_cst_2 : FVec F S_ .f32 := constant S_ .f32 0x7F800000#32
  let main_v10 : FVec F S2x64x64 .f32 := broadcastInDim S2x64x64 ![] bcast_S_S2x64x64 main_cst_2
  let main_v11 : IVec S2x64x64 1 := cmpf .olt main_v9 main_v10
  let main_c_3 : IVec S_ 1 := constantI S_ 1 1#1
  let main_v12 : IVec S_ 1 := (fun x v => Host.reduce IntOp.andi x v reducesTo_S2x64x64_S_d0_1_2 h_S_) main_v11 main_c_3
  let main_v13 : IVec S_ 1 := andi main_v8 main_v12
  let main_v14 : FVec F S2x64 .f32 := Host.absf main_arg3
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg4 main_arg5 main_v13 main_v16
-- ==== Kernel.lean ====
abbrev S16384x192 : Shape := ⟨2, ![16384, 192]⟩
abbrev S16384x16384 : Shape := ⟨2, ![16384, 16384]⟩
abbrev S2x64x64 : Shape := ⟨3, ![2, 64, 64]⟩
abbrev S2x64 : Shape := ⟨2, ![2, 64]⟩
abbrev S192x64 : Shape := ⟨2, ![192, 64]⟩
abbrev S64 : Shape := ⟨1, ![64]⟩
abbrev S16384x64 : Shape := ⟨2, ![16384, 64]⟩
abbrev S_ : Shape := ⟨0, ![]⟩
abbrev S16384x128 : Shape := ⟨2, ![16384, 128]⟩
abbrev S1x64x64 : Shape := ⟨3, ![1, 64, 64]⟩
abbrev S64x64 : Shape := ⟨2, ![64, 64]⟩
abbrev S1x64 : Shape := ⟨2, ![1, 64]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S128x16384 : Shape := ⟨2, ![128, 16384]⟩

abbrev nBuf : Space → Nat
  | .hbm => 61
  | .vmem => 12
  | .smem => 0
  | _ => 0

abbrev bufTy : (tb : Table) → Fin (tcTables nBuf tb) → BufTy
  | .hbm, ⟨0, _⟩ => ⟨S16384x192, .f32⟩
  | .hbm, ⟨1, _⟩ => ⟨S16384x16384, .f32⟩
  | .hbm, ⟨2, _⟩ => ⟨S2x64x64, .f32⟩
  | .hbm, ⟨3, _⟩ => ⟨S2x64, .f32⟩
  | .hbm, ⟨4, _⟩ => ⟨S192x64, .f32⟩
  | .hbm, ⟨5, _⟩ => ⟨S64, .f32⟩
  | .hbm, ⟨6, _⟩ => ⟨S16384x64, .f32⟩
  | .hbm, ⟨7, _⟩ => ⟨S16384x64, .f32⟩
  | .hbm, ⟨8, _⟩ => ⟨S16384x64, .f32⟩
  | .hbm, ⟨9, _⟩ => ⟨S_, .f32⟩
  | .hbm, ⟨10, _⟩ => ⟨S16384x64, .f32⟩
  | .hbm, ⟨11, _⟩ => ⟨S16384x64, .i1⟩
  | .hbm, ⟨12, _⟩ => ⟨S16384x64, .f32⟩
  | .hbm, ⟨13, _⟩ => ⟨S_, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S16384x64, .f32⟩
  | .hbm, ⟨19, _⟩ => ⟨S16384x64, .i1⟩
  | .hbm, ⟨20, _⟩ => ⟨S16384x64, .f32⟩
  | .hbm, ⟨21, _⟩ => ⟨S_, .f32⟩
  | .hbm, ⟨22, _⟩ => ⟨S16384x64, .f32⟩
  | .hbm, ⟨23, _⟩ => ⟨S16384x64, .f32⟩
  | .hbm, ⟨24, _⟩ => ⟨S16384x64, .f32⟩
  | .hbm, ⟨25, _⟩ => ⟨S16384x128, .f32⟩
  | .hbm, ⟨26, _⟩ => ⟨S1x64x64, .f32⟩
  | .hbm, ⟨27, _⟩ => ⟨S64x64, .f32⟩
  | .hbm, ⟨28, _⟩ => ⟨S1x64, .f32⟩
  | .hbm, ⟨29, _⟩ => ⟨S64, .f32⟩
  | .hbm, ⟨30, _⟩ => ⟨S_, .f32⟩
  | .hbm, ⟨31, _⟩ => ⟨S64x64, .f32⟩
  | .hbm, ⟨32, _⟩ => ⟨S64x128, .f32⟩
  | .hbm, ⟨33, _⟩ => ⟨S64x128, .f32⟩
  | .hbm, ⟨34, _⟩ => ⟨S128x128, .f32⟩
  | .hbm, ⟨35, _⟩ => ⟨S128, .f32⟩
  | .hbm, ⟨36, _⟩ => ⟨S1x128, .f32⟩
  | .hbm, ⟨37, _⟩ => ⟨S16384x128, .f32⟩
  | .hbm, ⟨38, _⟩ => ⟨S16384x128, .bf16⟩
  | .hbm, ⟨39, _⟩ => ⟨S16384x128, .f32⟩
  | .hbm, ⟨40, _⟩ => ⟨S1x64x64, .f32⟩
  | .hbm, ⟨41, _⟩ => ⟨S64x64, .f32⟩
  | .hbm, ⟨42, _⟩ => ⟨S1x64, .f32⟩
  | .hbm, ⟨43, _⟩ => ⟨S64, .f32⟩
  | .hbm, ⟨44, _⟩ => ⟨S_, .f32⟩
  | .hbm, ⟨45, _⟩ => ⟨S64x64, .f32⟩
  | .hbm, ⟨46, _⟩ => ⟨S64x128, .f32⟩
  | .hbm, ⟨47, _⟩ => ⟨S64x128, .f32⟩
  | .hbm, ⟨48, _⟩ => ⟨S128x128, .f32⟩
  | .hbm, ⟨49, _⟩ => ⟨S128, .f32⟩
  | .hbm, ⟨50, _⟩ => ⟨S1x128, .f32⟩
  | .hbm, ⟨51, _⟩ => ⟨S16384x128, .f32⟩
  | .hbm, ⟨52, _⟩ => ⟨S16384x128, .bf16⟩
  | .hbm, ⟨53, _⟩ => ⟨S16384x128, .f32⟩
  | .hbm, ⟨54, _⟩ => ⟨S16384x64, .f32⟩
  | .hbm, ⟨55, _⟩ => ⟨S16384x64, .f32⟩
  | .hbm, ⟨56, _⟩ => ⟨S16384x192, .f32⟩
  | .hbm, ⟨57, _⟩ => ⟨S16384x64, .f32⟩
  | .hbm, ⟨58, _⟩ => ⟨S1x64, .f32⟩
  | .hbm, ⟨59, _⟩ => ⟨S16384x64, .f32⟩
  | .hbm, ⟨60, _⟩ => ⟨S16384x64, .f32⟩
  | .local _ .vmem, ⟨0, _⟩ => ⟨S128x16384, .f32⟩
  | .local _ .vmem, ⟨1, _⟩ => ⟨S128x16384, .f32⟩
  | .local _ .vmem, ⟨2, _⟩ => ⟨S16384x128, .bf16⟩
  | .local _ .vmem, ⟨3, _⟩ => ⟨S1x128, .f32⟩
  | .local _ .vmem, ⟨4, _⟩ => ⟨S128x128, .f32⟩
  | .local _ .vmem, ⟨5, _⟩ => ⟨S128x128, .f32⟩
  | .local _ .vmem, ⟨6, _⟩ => ⟨S128x16384, .f32⟩
  | .local _ .vmem, ⟨7, _⟩ => ⟨S128x16384, .f32⟩
  | .local _ .vmem, ⟨8, _⟩ => ⟨S16384x128, .bf16⟩
  | .local _ .vmem, ⟨9, _⟩ => ⟨S1x128, .f32⟩
  | .local _ .vmem, ⟨10, _⟩ => ⟨S128x128, .f32⟩
  | .local _ .vmem, ⟨11, _⟩ => ⟨S128x128, .f32⟩
  | _, _ => ⟨S16384x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_call2_v0 : Ref sig .tc := ⟨.hbm, 32, rfl⟩
abbrev main_call2_v1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_call3_v0 : Ref sig .tc := ⟨.hbm, 46, rfl⟩
abbrev main_call3_v1 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S16384x192_S16384x64_0_0 : S16384x192.Slices ![0, 0] S16384x64
  slices_S16384x192_S16384x64_0_64 : S16384x192.Slices ![0, 64] S16384x64
  slices_S16384x192_S16384x64_0_128 : S16384x192.Slices ![0, 128] S16384x64
  bcast_S_S16384x64 : S_.BroadcastsInDim S16384x64 (![] : Fin 0 → Fin S16384x64.rank)
  concatenates_S16384x64_S16384x64_S16384x128_d1 : Shape.Concatenates [S16384x64, S16384x64] S16384x128 1
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  bitsLt_bf16_f32 : FTy.bits .bf16 < FTy.bits .f32
  inb_S128x16384_S128x16384_0_0 : ∀ a, (![0, 0] : Fin 2 → Nat) a + S128x16384.size a ≤ S128x16384.size a
  h_S128x16384 : 0 < S128x16384.numel
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  slices_S2x64x64_S1x64x64_1_0_0 : S2x64x64.Slices ![1, 0, 0] S1x64x64
  slices_S2x64_S1x64_1_0 : S2x64.Slices ![1, 0] S1x64
  slices_S16384x128_S16384x64_0_0 : S16384x128.Slices ![0, 0] S16384x64
  slices_S16384x128_S16384x64_0_64 : S16384x128.Slices ![0, 64] S16384x64
  concatenates_S16384x64_S16384x64_S16384x64_S16384x192_d1 : Shape.Concatenates [S16384x64, S16384x64, S16384x64] S16384x192 1
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x128_S128x128_S16384x128_1_0_0_1_n_n_wf : DotDims.WF S16384x128 S128x128 S16384x128 [1] [0] [0] [1] [] []
  dot_S128x16384_S16384x128_S128x128_1_0_0_1_n_n_wf : DotDims.WF S128x16384 S16384x128 S128x128 [1] [0] [0] [1] [] []
  dot_S16384x192_S192x64_S16384x64_1_0_0_1_n_n_wf : DotDims.WF S16384x192 S192x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S16384x16384.size a
  hwx0_0 : ∀ i : grid0.Coords, EltTy.bits .f32 = 32 ∨ (Rect.block (s := S16384x16384) S128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .bf16 = 32 ∨ (Rect.block (s := S16384x128) S16384x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S16384x128.size a
  hwx0_3 : ∀ i : grid0.Coords, EltTy.bits .f32 = 32 ∨ (Rect.block (s := S16384x128) S128x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16384.size a ≤ S16384x16384.size a
  hwx1_0 : ∀ i : grid1.Coords, EltTy.bits .f32 = 32 ∨ (Rect.block (s := S16384x16384) S128x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S16384x128.size a
  hwx1_1 : ∀ i : grid1.Coords, EltTy.bits .bf16 = 32 ∨ (Rect.block (s := S16384x128) S16384x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S16384x128.size a
  hwx1_3 : ∀ i : grid1.Coords, EltTy.bits .f32 = 32 ∨ (Rect.block (s := S16384x128) S128x128.size (cc1_transform_3 i) (hinb1_3 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S128x16384_S16384x128_S128x128_1_0_0_1_n_n : DotDims S128x16384 S16384x128 S128x128 where
  lhsContracting := [1]
  rhsContracting := [0]
  lhsNonContracting := [0]
  rhsNonContracting := [1]
  lhsBatch := []
  rhsBatch := []
  wf := dot_S128x16384_S16384x128_S128x128_1_0_0_1_n_n_wf
def dot_S16384x192_S192x64_S16384x64_1_0_0_1_n_n : DotDims S16384x192 S192x64 S16384x64 where
  lhsContracting := [1]
  rhsContracting := [0]
  lhsNonContracting := [0]
  rhsNonContracting := [1]
  lhsBatch := []
  rhsBatch := []
  wf := dot_S16384x192_S192x64_S16384x64_1_0_0_1_n_n_wf

abbrev win0_0 : Pipeline.Window sig grid0 :=
  Pipeline.Window.ofSpec (Memref.whole main_arg1) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S128x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S16384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x192 : Shape := ⟨2, ![16384, 192]⟩
abbrev S16384x16384 : Shape := ⟨2, ![16384, 16384]⟩
abbrev S2x64x64 : Shape := ⟨3, ![2, 64, 64]⟩
abbrev S2x64 : Shape := ⟨2, ![2, 64]⟩
abbrev S192x64 : Shape := ⟨2, ![192, 64]⟩
abbrev S64 : Shape := ⟨1, ![64]⟩
abbrev S16384x64 : Shape := ⟨2, ![16384, 64]⟩
abbrev S_ : Shape := ⟨0, ![]⟩
abbrev S1x64x64 : Shape := ⟨3, ![1, 64, 64]⟩
abbrev S64x64 : Shape := ⟨2, ![64, 64]⟩
abbrev S1x64 : Shape := ⟨2, ![1, 64]⟩

abbrev nBuf : Space → Nat
  | .hbm => 140
  | .vmem => 0
  | .smem => 0
  | _ => 0

abbrev hbmTy0_0 (i : Nat) : BufTy := match i % 128 with
  | 0 => ⟨S16384x192, .f32⟩
  | 1 => ⟨S16384x16384, .f32⟩
  | 2 => ⟨S2x64x64, .f32⟩
  | 3 => ⟨S2x64, .f32⟩
  | 4 => ⟨S192x64, .f32⟩
  | 5 => ⟨S64, .f32⟩
  | 6 => ⟨S16384x64, .f32⟩
  | 7 => ⟨S16384x64, .f32⟩
  | 8 => ⟨S16384x64, .f32⟩
  | 9 => ⟨S_, .f32⟩
  | 10 => ⟨S16384x64, .f32⟩
  | 11 => ⟨S16384x64, .i1⟩
  | 12 => ⟨S_, .f32⟩
  | 13 => ⟨S16384x64, .f32⟩
  | 14 => ⟨S16384x64, .i1⟩
  | 15 => ⟨S_, .f32⟩
  | 16 => ⟨S_, .f32⟩
  | 17 => ⟨S16384x64, .f32⟩
  | 18 => ⟨S16384x64, .f32⟩
  | 19 => ⟨S16384x64, .f32⟩
  | 20 => ⟨S_, .f32⟩
  | 21 => ⟨S16384x64, .f32⟩
  | 22 => ⟨S16384x64, .f32⟩
  | 23 => ⟨S16384x64, .f32⟩
  | 24 => ⟨S1x64x64, .f32⟩
  | 25 => ⟨S64x64, .f32⟩
  | 26 => ⟨S1x64, .f32⟩
  | 27 => ⟨S64, .f32⟩
  | 28 => ⟨S16384x64, .f32⟩
  | 29 => ⟨S16384x64, .f32⟩
  | 30 => ⟨S1x64, .f32⟩
  | 31 => ⟨S16384x64, .f32⟩
  | 32 => ⟨S16384x64, .f32⟩
  | 33 => ⟨S_, .f32⟩
  | 34 => ⟨S16384x64, .f32⟩
  | 35 => ⟨S16384x64, .i1⟩
  | 36 => ⟨S_, .f32⟩
  | 37 => ⟨S16384x64, .f32⟩
  | 38 => ⟨S16384x64, .i1⟩
  | 39 => ⟨S_, .f32⟩
  | 40 => ⟨S_, .f32⟩
  | 41 => ⟨S16384x64, .f32⟩
  | 42 => ⟨S16384x64, .f32⟩
  | 43 => ⟨S16384x64, .f32⟩
  | 44 => ⟨S_, .f32⟩
  | 45 => ⟨S16384x64, .f32⟩
  | 46 => ⟨S16384x64, .f32⟩
  | 47 => ⟨S16384x64, .f32⟩
  | 48 => ⟨S_, .f32⟩
  | 49 => ⟨S16384x64, .f32⟩
  | 50 => ⟨S16384x64, .i1⟩
  | 51 => ⟨S_, .f32⟩
  | 52 => ⟨S16384x64, .f32⟩
  | 53 => ⟨S16384x64, .i1⟩
  | 54 => ⟨S_, .f32⟩
  | 55 => ⟨S_, .f32⟩
  | 56 => ⟨S16384x64, .f32⟩
  | 57 => ⟨S16384x64, .f32⟩
  | 58 => ⟨S16384x64, .f32⟩
  | 59 => ⟨S_, .f32⟩
  | 60 => ⟨S16384x64, .f32⟩
  | 61 => ⟨S16384x64, .f32⟩
  | 62 => ⟨S16384x64, .f32⟩
  | 63 => ⟨S1x64x64, .f32⟩
  | 64 => ⟨S64x64, .f32⟩
  | 65 => ⟨S1x64, .f32⟩
  | 66 => ⟨S64, .f32⟩
  | 67 => ⟨S16384x64, .f32⟩
  | 68 => ⟨S16384x64, .f32⟩
  | 69 => ⟨S1x64, .f32⟩
  | 70 => ⟨S16384x64, .f32⟩
  | 71 => ⟨S16384x64, .f32⟩
  | 72 => ⟨S_, .f32⟩
  | 73 => ⟨S16384x64, .f32⟩
  | 74 => ⟨S16384x64, .i1⟩
  | 75 => ⟨S_, .f32⟩
  | 76 => ⟨S16384x64, .f32⟩
  | 77 => ⟨S16384x64, .i1⟩
  | 78 => ⟨S_, .f32⟩
  | 79 => ⟨S_, .f32⟩
  | 80 => ⟨S16384x64, .f32⟩
  | 81 => ⟨S16384x64, .f32⟩
  | 82 => ⟨S16384x64, .f32⟩
  | 83 => ⟨S_, .f32⟩
  | 84 => ⟨S16384x64, .f32⟩
  | 85 => ⟨S16384x64, .f32⟩
  | 86 => ⟨S16384x64, .f32⟩
  | 87 => ⟨S1x64x64, .f32⟩
  | 88 => ⟨S64x64, .f32⟩
  | 89 => ⟨S1x64, .f32⟩
  | 90 => ⟨S64, .f32⟩
  | 91 => ⟨S16384x64, .f32⟩
  | 92 => ⟨S16384x64, .f32⟩
  | 93 => ⟨S1x64, .f32⟩
  | 94 => ⟨S16384x64, .f32⟩
  | 95 => ⟨S16384x64, .f32⟩
  | 96 => ⟨S_, .f32⟩
  | 97 => ⟨S16384x64, .f32⟩
  | 98 => ⟨S16384x64, .i1⟩
  | 99 => ⟨S_, .f32⟩
  | 100 => ⟨S16384x64, .f32⟩
  | 101 => ⟨S16384x64, .i1⟩
  | 102 => ⟨S_, .f32⟩
  | 103 => ⟨S_, .f32⟩
  | 104 => ⟨S16384x64, .f32⟩
  | 105 => ⟨S16384x64, .f32⟩
  | 106 => ⟨S16384x64, .f32⟩
  | 107 => ⟨S_, .f32⟩
  | 108 => ⟨S16384x64, .f32⟩
  | 109 => ⟨S16384x64, .f32⟩
  | 110 => ⟨S16384x64, .f32⟩
  | 111 => ⟨S1x64x64, .f32⟩
  | 112 => ⟨S64x64, .f32⟩
  | 113 => ⟨S1x64, .f32⟩
  | 114 => ⟨S64, .f32⟩
  | 115 => ⟨S16384x64, .f32⟩
  | 116 => ⟨S16384x64, .f32⟩
  | 117 => ⟨S1x64, .f32⟩
  | 118 => ⟨S16384x64, .f32⟩
  | 119 => ⟨S16384x64, .f32⟩
  | 120 => ⟨S_, .f32⟩
  | 121 => ⟨S16384x64, .f32⟩
  | 122 => ⟨S16384x64, .i1⟩
  | 123 => ⟨S_, .f32⟩
  | 124 => ⟨S16384x64, .f32⟩
  | 125 => ⟨S16384x64, .i1⟩
  | 126 => ⟨S_, .f32⟩
  | 127 => ⟨S_, .f32⟩
  | _ => ⟨S16384x192, .f32⟩

abbrev hbmTy0_1 (i : Nat) : BufTy := match i % 128 with
  | 0 => ⟨S16384x64, .f32⟩
  | 1 => ⟨S16384x64, .f32⟩
  | 2 => ⟨S16384x64, .f32⟩
  | 3 => ⟨S_, .f32⟩
  | 4 => ⟨S16384x64, .f32⟩
  | 5 => ⟨S16384x64, .f32⟩
  | 6 => ⟨S16384x64, .f32⟩
  | 7 => ⟨S16384x192, .f32⟩
  | 8 => ⟨S16384x64, .f32⟩
  | 9 => ⟨S1x64, .f32⟩
  | 10 => ⟨S16384x64, .f32⟩
  | 11 => ⟨S16384x64, .f32⟩
  | _ => ⟨S16384x192, .f32⟩

abbrev hbmTy (i : Nat) : BufTy := match i / 128 with
  | 0 => hbmTy0_0 i
  | 1 => hbmTy0_1 i
  | _ => ⟨S16384x192, .f32⟩

abbrev bufTy : (tb : Table) → Fin (tcTables nBuf tb) → BufTy
  | .hbm, ⟨i, _⟩ => hbmTy i
  | _, _ => ⟨S16384x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_cst_1 : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_v4 : Ref sig .tc := ⟨.hbm, 18, rfl⟩
abbrev main_call0_v5 : Ref sig .tc := ⟨.hbm, 19, rfl⟩
abbrev main_call0_cst_2 : Ref sig .tc := ⟨.hbm, 20, rfl⟩
abbrev main_call0_v6 : Ref sig .tc := ⟨.hbm, 21, rfl⟩
abbrev main_call0_v7 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_cst_0 : Ref sig .tc := ⟨.hbm, 36, rfl⟩
abbrev main_call1_v2 : Ref sig .tc := ⟨.hbm, 37, rfl⟩
abbrev main_call1_v3 : Ref sig .tc := ⟨.hbm, 38, rfl⟩
abbrev main_call1_cst_1 : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_v4 : Ref sig .tc := ⟨.hbm, 42, rfl⟩
abbrev main_call1_v5 : Ref sig .tc := ⟨.hbm, 43, rfl⟩
abbrev main_call1_cst_2 : Ref sig .tc := ⟨.hbm, 44, rfl⟩
abbrev main_call1_v6 : Ref sig .tc := ⟨.hbm, 45, rfl⟩
abbrev main_call1_v7 : Ref sig .tc := ⟨.hbm, 46, rfl⟩
abbrev main_v13 : Ref sig .tc := ⟨.hbm, 47, rfl⟩
abbrev main_call2_cst : Ref sig .tc := ⟨.hbm, 48, rfl⟩
abbrev main_call2_v0 : Ref sig .tc := ⟨.hbm, 49, rfl⟩
abbrev main_call2_v1 : Ref sig .tc := ⟨.hbm, 50, rfl⟩
abbrev main_call2_cst_0 : Ref sig .tc := ⟨.hbm, 51, rfl⟩
abbrev main_call2_v2 : Ref sig .tc := ⟨.hbm, 52, rfl⟩
abbrev main_call2_v3 : Ref sig .tc := ⟨.hbm, 53, rfl⟩
abbrev main_call2_cst_1 : Ref sig .tc := ⟨.hbm, 54, rfl⟩
abbrev main_call2_call0_v0 : Ref sig .tc := ⟨.hbm, 55, rfl⟩
abbrev main_call2_call0_v1 : Ref sig .tc := ⟨.hbm, 56, rfl⟩
abbrev main_call2_v4 : Ref sig .tc := ⟨.hbm, 57, rfl⟩
abbrev main_call2_v5 : Ref sig .tc := ⟨.hbm, 58, rfl⟩
abbrev main_call2_cst_2 : Ref sig .tc := ⟨.hbm, 59, rfl⟩
abbrev main_call2_v6 : Ref sig .tc := ⟨.hbm, 60, rfl⟩
abbrev main_call2_v7 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_call3_cst : Ref sig .tc := ⟨.hbm, 72, rfl⟩
abbrev main_call3_v0 : Ref sig .tc := ⟨.hbm, 73, rfl⟩
abbrev main_call3_v1 : Ref sig .tc := ⟨.hbm, 74, rfl⟩
abbrev main_call3_cst_0 : Ref sig .tc := ⟨.hbm, 75, rfl⟩
abbrev main_call3_v2 : Ref sig .tc := ⟨.hbm, 76, rfl⟩
abbrev main_call3_v3 : Ref sig .tc := ⟨.hbm, 77, rfl⟩
abbrev main_call3_cst_1 : Ref sig .tc := ⟨.hbm, 78, rfl⟩
abbrev main_call3_call0_v0 : Ref sig .tc := ⟨.hbm, 79, rfl⟩
abbrev main_call3_call0_v1 : Ref sig .tc := ⟨.hbm, 80, rfl⟩
abbrev main_call3_v4 : Ref sig .tc := ⟨.hbm, 81, rfl⟩
abbrev main_call3_v5 : Ref sig .tc := ⟨.hbm, 82, rfl⟩
abbrev main_call3_cst_2 : Ref sig .tc := ⟨.hbm, 83, rfl⟩
abbrev main_call3_v6 : Ref sig .tc := ⟨.hbm, 84, rfl⟩
abbrev main_call3_v7 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_call4_cst : Ref sig .tc := ⟨.hbm, 96, rfl⟩
abbrev main_call4_v0 : Ref sig .tc := ⟨.hbm, 97, rfl⟩
abbrev main_call4_v1 : Ref sig .tc := ⟨.hbm, 98, rfl⟩
abbrev main_call4_cst_0 : Ref sig .tc := ⟨.hbm, 99, rfl⟩
abbrev main_call4_v2 : Ref sig .tc := ⟨.hbm, 100, rfl⟩
abbrev main_call4_v3 : Ref sig .tc := ⟨.hbm, 101, rfl⟩
abbrev main_call4_cst_1 : Ref sig .tc := ⟨.hbm, 102, rfl⟩
abbrev main_call4_call0_v0 : Ref sig .tc := ⟨.hbm, 103, rfl⟩
abbrev main_call4_call0_v1 : Ref sig .tc := ⟨.hbm, 104, rfl⟩
abbrev main_call4_v4 : Ref sig .tc := ⟨.hbm, 105, rfl⟩
abbrev main_call4_v5 : Ref sig .tc := ⟨.hbm, 106, rfl⟩
abbrev main_call4_cst_2 : Ref sig .tc := ⟨.hbm, 107, rfl⟩
abbrev main_call4_v6 : Ref sig .tc := ⟨.hbm, 108, rfl⟩
abbrev main_call4_v7 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_call5_cst : Ref sig .tc := ⟨.hbm, 120, rfl⟩
abbrev main_call5_v0 : Ref sig .tc := ⟨.hbm, 121, rfl⟩
abbrev main_call5_v1 : Ref sig .tc := ⟨.hbm, 122, rfl⟩
abbrev main_call5_cst_0 : Ref sig .tc := ⟨.hbm, 123, rfl⟩
abbrev main_call5_v2 : Ref sig .tc := ⟨.hbm, 124, rfl⟩
abbrev main_call5_v3 : Ref sig .tc := ⟨.hbm, 125, rfl⟩
abbrev main_call5_cst_1 : Ref sig .tc := ⟨.hbm, 126, rfl⟩
abbrev main_call5_call0_v0 : Ref sig .tc := ⟨.hbm, 127, rfl⟩
abbrev main_call5_call0_v1 : Ref sig .tc := ⟨.hbm, 128, rfl⟩
abbrev main_call5_v4 : Ref sig .tc := ⟨.hbm, 129, rfl⟩
abbrev main_call5_v5 : Ref sig .tc := ⟨.hbm, 130, rfl⟩
abbrev main_call5_cst_2 : Ref sig .tc := ⟨.hbm, 131, rfl⟩
abbrev main_call5_v6 : Ref sig .tc := ⟨.hbm, 132, rfl⟩
abbrev main_call5_v7 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_v49 : Ref sig .tc := ⟨.hbm, 139, rfl⟩

abbrev nD : Nat := 1
abbrev τ : Topo := Topo.v7x

variable {F : FTy → Type} [FloatOps F]

class Facts₀ : Prop where
  slices_S16384x192_S16384x64_0_0 : S16384x192.Slices ![0, 0] S16384x64
  slices_S16384x192_S16384x64_0_64 : S16384x192.Slices ![0, 64] S16384x64
  slices_S16384x192_S16384x64_0_128 : S16384x192.Slices ![0, 128] S16384x64
  bcast_S_S16384x64 : S_.BroadcastsInDim S16384x64 (![] : Fin 0 → Fin S16384x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  slices_S2x64x64_S1x64x64_1_0_0 : S2x64x64.Slices ![1, 0, 0] S1x64x64
  slices_S2x64_S1x64_1_0 : S2x64.Slices ![1, 0] S1x64
  concatenates_S16384x64_S16384x64_S16384x64_S16384x192_d1 : Shape.Concatenates [S16384x64, S16384x64, S16384x64] S16384x192 1
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []
  dot_S16384x192_S192x64_S16384x64_1_0_0_1_n_n_wf : DotDims.WF S16384x192 S192x64 S16384x64 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x192_S192x64_S16384x64_1_0_0_1_n_n : DotDims S16384x192 S192x64 S16384x64 where
  lhsContracting := [1]
  rhsContracting := [0]
  lhsNonContracting := [0]
  rhsNonContracting := [1]
  lhsBatch := []
  rhsBatch := []
  wf := dot_S16384x192_S192x64_S16384x64_1_0_0_1_n_n_wf

class Facts : Prop extends Facts₀ where

variable [Facts]
-- ==== Proof.KDefs.lean ====
/-
  The two launches of the graph-convolution kernel, as data: what each launch finds in its windows' arrays,
  what one grid point leaves in the output block, and the contents of every buffer at each boundary between
  the host stretches and the launches of the program.

  One launch multiplies a 128-row band of the adjacency matrix (all 16384 columns) by the whole right factor
  [16384, 128], adds the bias row, and applies x ↦ x for x > 0, exp x − 1 otherwise; grid point t owns rows
  128·t … 128·t + 127 of the result.
-/
import proofs.«152001_j83820581749460_2_alg».proof.Proof.Gen.Kernel.Launch
import proofs.«152001_j83820581749460_2_alg».proof.Proof.Gen.Kernel.Skeleton
import proofs.«152001_j83820581749460_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

section Regions
-- the buffer contents a launch is entered with
variable (V : (c : Dev nD) → (b : Ref sig .tc) → Buf (Elt F) ((c : Thread nD τ).loc b))

/-! ## First launch -/

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S128x16384 := Rect.unit (s := S128x16384) ![0, 0] S128x16384.size inb_S128x16384_S128x16384_0_0
abbrev r0_1 : Rect S16384x128 := Rect.unit (s := S16384x128) ![0, 0] S16384x128.size inb_S16384x128_S16384x128_0_0
abbrev r0_2 : Rect S1x128 := Rect.unit (s := S1x128) ![0, 0] S1x128.size inb_S1x128_S1x128_0_0
abbrev r0_3 : Rect S128x128 := Rect.unit (s := S128x128) ![0, 0] S128x128.size inb_S128x128_S128x128_0_0

/-- The output block after one grid point: the one whole-block store, of the band times the right factor plus
    the bias row, activated. -/
def out0_3 (x0 : Vec F S128x16384 .f32) (x1 : Vec F S16384x128 .bf16) (x2 : Vec F S1x128 .f32) : Vec F S128x128 .f32 :=
  View.canon [⟨r0_3, k0_pay1 (View.ld x0 r0_0) (View.ld x1 r0_1) (View.ld x2 r0_2)⟩]

/-- The launch's bookkeeping on core `c`: the arrays as found; after grid point `t` every input block in place and the
    output block at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Second launch -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S128x16384 .f32) (x1 : Vec F S16384x128 .bf16) (x2 : Vec F S1x128 .f32) : Vec F S128x128 .f32 :=
  View.canon [⟨r0_3, k1_pay1 (View.ld x0 r0_0) (View.ld x1 r0_1) (View.ld x2 r0_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Regions

/-! ## The buffer contents at each boundary of the program

`W0` is the launch memory; a host stretch maps the contents through its operations; a kernel launch replaces its
windows' arrays by what its write-backs leave and keeps every other buffer. -/

abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev W4 (c : Dev nD) : Valuation τ sig (Elt F) := StableHlo.after hostOps0_3 (W3 m c)
abbrev W5 (c : Dev nD) : Valuation τ sig (Elt F) := StableHlo.after hostOps0_4 (W4 m c)
abbrev W6 (c : Dev nD) : Valuation τ sig (Elt F) := StableHlo.after hostOps0_5 (W5 m c)
abbrev W7 (c : Dev nD) : Valuation τ sig (Elt F) := StableHlo.after hostOps0_6 (W6 m c)
/-- The same read at the TensorCore's references: what the first launch is entered with. -/
abbrev V7 : (c : Dev nD) → (b : Ref sig .tc) → Buf (Elt F) ((c : Thread nD τ).loc b) := fun c b => W7 m c b
/-- After the first launch. -/
def W8 (c : Dev nD) : Valuation τ sig (Elt F) :=
  Pipeline.withArrays spec0 c (W7 m c) fun w => (dat0 (V7 m) c).arrAt w cfg0.N
abbrev W9 (c : Dev nD) : Valuation τ sig (Elt F) := StableHlo.after hostOps1 (W8 m c)
abbrev W10 (c : Dev nD) : Valuation τ sig (Elt F) := StableHlo.after hostOps1_1 (W9 m c)
abbrev W11 (c : Dev nD) : Valuation τ sig (Elt F) := StableHlo.after hostOps1_2 (W10 m c)
/-- What the second launch is entered with. -/
abbrev V11 : (c : Dev nD) → (b : Ref sig .tc) → Buf (Elt F) ((c : Thread nD τ).loc b) := fun c b => W11 m c b
/-- After the second launch. -/
def W12 (c : Dev nD) : Valuation τ sig (Elt F) :=
  Pipeline.withArrays spec1 c (W11 m c) fun w => (dat1 (V11 m) c).arrAt w cfg1.N
/-- At the program's return. -/
abbrev W13 (c : Dev nD) : Valuation τ sig (Elt F) := StableHlo.after hostOps2 (W12 m c)

theorem W8_arr (c : Dev nD) (w : Fin cfg0.W) :
    W8 m c (Proc.devRef .tc (Pipeline.arrRef spec0 w)) = (dat0 (V7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = W7 m c (Proc.devRef .tc b) := by
  unfold W8; exact Pipeline.withArrays_of_ne spec0 c _ _ b hb
theorem W12_arr (c : Dev nD) (w : Fin cfg1.W) :
    W12 m c (Proc.devRef .tc (Pipeline.arrRef spec1 w)) = (dat1 (V11 m) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m c (Proc.devRef .tc b) = W11 m c (Proc.devRef .tc b) := by
  unfold W12; exact Pipeline.withArrays_of_ne spec1 c _ _ b hb

end Cert.Kernel.Hand

end
-- ==== Proof.KFrame.lean ====
/-
  The frame of the kernel program: two launches of the graph-convolution kernel among eleven host stretches.

  Per launch, at the buffer contents `V` the launch is entered with: each input window's staging buffer holds
  its block at every grid point; the one whole-block store covers the output block; the body's triple; the body
  obligation of the pipeline. Then the run: a thread state per boundary (every unscoped buffer at that boundary's
  contents, the generator register at some state, nothing owed), a segment per stretch and per launch, and the
  program's run from the launch memory to the last boundary's contents, at which every argument array reads as launched.
-/
import proofs.«152001_j83820581749460_2_alg».proof.Proof.KDefs
import proofs.«152001_j83820581749460_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

section Regions
variable (V : (c : Dev nD) → (b : Ref sig .tc) → Buf (Elt F) ((c : Thread nD τ).loc b))

/-! ## Launch 0: the windows' blocks -/

/-- Input window 0's current staging buffer holds its block at every grid point, fetched there or not, for any
    bookkeeping whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1 (the right factor, fetched once). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2 (the bias row, fetched once). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one store is of the whole output block, so it covers it. -/
theorem cover0_3 (p0 : Vec F S128x128 .f32) (y : S128x128.Idx) :
    ∃ pc ∈ ([⟨r0_3, p0⟩] : List (View.Piece (Elt F) S128x128 .f32)), y ∈ pc.1.set :=
  View.cover_of_tiled [⟨r0_3, p0⟩] S128x128.size (by rfl) y

set_option maxHeartbeats 1000000 in
/-- The kernel body on whole staging memrefs, the three inputs' at read contents `x0 x1 x2` and the output's at
    anything, runs to the continuation holding the inputs' as they were and the output's at `out0_3` of them. The
    body reads the output block once before storing it; the value read is not used. -/
theorem sound_kernel0 (c : Dev nD) (E : Set ℕ) (i : grid0.Coords)
    (arg1 : Memref sig .tc .vmem S128x16384 .f32) (harg1 : arg1.IsWhole)
    (arg2 : Memref sig .tc .vmem S16384x128 .bf16) (harg2 : arg2.IsWhole)
    (arg3 : Memref sig .tc .vmem S1x128 .f32) (harg3 : arg3.IsWhole)
    (arg4 : Memref sig .tc .vmem S128x128 .f32) (harg4 : arg4.IsWhole)
    (x0 : Vec F S128x16384 .f32) (x1 : Vec F S16384x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__gcn_kernel i arg1 harg1 arg2 harg2 arg3 harg3 arg4 harg4) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- Each input's current staging buffer holds its block at every grid point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at grid point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the inputs' memrefs hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

/-! ## Launch 1: the windows' blocks -/

/-- Input window 0's current staging buffer holds its block at every grid point, fetched there or not, for any
    bookkeeping whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1 (the right factor, fetched once). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for input window 2 (the bias row, fetched once). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The one store is of the whole output block, so it covers it. -/
theorem cover1_3 (p0 : Vec F S128x128 .f32) (y : S128x128.Idx) :
    ∃ pc ∈ ([⟨r0_3, p0⟩] : List (View.Piece (Elt F) S128x128 .f32)), y ∈ pc.1.set :=
  View.cover_of_tiled [⟨r0_3, p0⟩] S128x128.size (by rfl) y

set_option maxHeartbeats 1000000 in
/-- The kernel body on whole staging memrefs, the three inputs' at read contents `x0 x1 x2` and the output's at
    anything, runs to the continuation holding the inputs' as they were and the output's at `out1_3` of them. The
    body reads the output block once before storing it; the value read is not used. -/
theorem sound_kernel1 (c : Dev nD) (E : Set ℕ) (i : grid1.Coords)
    (arg1 : Memref sig .tc .vmem S128x16384 .f32) (harg1 : arg1.IsWhole)
    (arg2 : Memref sig .tc .vmem S16384x128 .bf16) (harg2 : arg2.IsWhole)
    (arg3 : Memref sig .tc .vmem S1x128 .f32) (harg3 : arg3.IsWhole)
    (arg4 : Memref sig .tc .vmem S128x128 .f32) (harg4 : arg4.IsWhole)
    (x0 : Vec F S128x16384 .f32) (x1 : Vec F S16384x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__gcn_kernel i arg1 harg1 arg2 harg2 arg3 harg3 arg4 harg4) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- Each input's current staging buffer holds its block at every grid point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at grid point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the inputs' memrefs hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every grid point. -/
theorem body_obligation1 (c : Dev nD) : BodyObligation (dat1 (F := F) V c) (defs₀ (F := F)) Variants.none () Set.univ := fun t => by
  rw [bigSep_W1, bigSep_W1]
  exact sound_body1 V c t

end Regions

/-! # The run: the program's thirteen segments from the launch to the return -/

/-- The contents after each launch, read at the TensorCore's references. -/
abbrev V8 : (c : Dev nD) → (b : Ref sig .tc) → Buf (Elt F) ((c : Thread nD τ).loc b) := fun c b => W8 m c b
abbrev V12 : (c : Dev nD) → (b : Ref sig .tc) → Buf (Elt F) ((c : Thread nD τ).loc b) := fun c b => W12 m c b

/-- At the first launch's exit each of its arrays holds what the pipeline leaves and every other buffer what it held
    at entry. -/
theorem hF0 (c : Dev nD) (w : Fin cfg0.W) : (dat0 (V7 m) c).arrAt w cfg0.N = V8 m c (Pipeline.arrRef spec0 w) :=
  (W8_arr m c w).symm
theorem hrest0 (c : Dev nD) : ∀ b, b ∉ Finset.univ.image (Pipeline.arrRef spec0) → V8 m c b = V7 m c b :=
  fun b hb => W8_of_ne m c b fun w e => hb (Finset.mem_image.mpr ⟨w, Finset.mem_univ _, e⟩)
/-- The same at the second launch's exit. -/
theorem hF1 (c : Dev nD) (w : Fin cfg1.W) : (dat1 (V11 m) c).arrAt w cfg1.N = V12 m c (Pipeline.arrRef spec1 w) :=
  (W12_arr m c w).symm
theorem hrest1 (c : Dev nD) : ∀ b, b ∉ Finset.univ.image (Pipeline.arrRef spec1) → V12 m c b = V11 m c b :=
  fun b hb => W12_of_ne m c b fun w e => hb (Finset.mem_image.mpr ⟨w, Finset.mem_univ _, e⟩)

/-! ## The bookkeeping family and the thread state -/

/-- No pipeline has a prefetched table. -/
abbrev adm : (p : Fin 2) → (pcfgs (F := F) p).Adm := fun p => (cfgs p).toPCfg_adm
/-- Each launch's bookkeeping, at the contents it is entered with. -/
def pdats : (p : Fin 2) → (c : Dev nD) → Dat τ (Elt F) Unit ℕ (UR sig nD τ) ℕ (Pipeline.pin (pcfgs (F := F)) adm p) c
  | ⟨0, _⟩ => fun c => dat0 (V7 m) c
  | ⟨1, _⟩ => fun c => dat1 (V11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A host stretch as a segment: its operations over the unscoped references from the contents `W`, `R` riding along;
    it ends with those references at the stretch's image of `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W13 m c) ∗ ∃ r, prngReg c r)

/-! ## The launches as segments -/

set_option backward.isDefEq.respectTransparency.types false in
/-- Launch 0 over the thread state: entered from every unscoped buffer at `W7`, left at `W8`. Its arrays
    are split out of the unscoped buffers and put back at the exit contents; the generator register goes into the
    pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m) c).loose
  hwaits := Pipeline.hwaits_of_owed_zero _ _ _ _ L lv 0 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (V7 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V7 m c) (V8 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W11`, left at `W12`. Its arrays
    are split out of the unscoped buffers and put back at the exit contents; the generator register goes into the
    pipeline's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m) c).loose
  hwaits := Pipeline.hwaits_of_owed_zero _ _ _ _ L lv 1 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec1 c (V11 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V11 m c) (V12 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- The program's 13 segments in order: a host segment per stretch from its boundary's contents, a launch per call. -/
abbrev segs : List (Pipeline.Seg (pcfgs (F := F)) adm (pdats m) () defs₀ 𝒱₀ L lv) :=
  [
    .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .region (reg0 m),
    .host (hseg hostOps1 hostOps1_sub hostOps1_fresh (W8 m)),
    .host (hseg hostOps1_1 hostOps1_1_sub hostOps1_1_fresh (W9 m)),
    .host (hseg hostOps1_2 hostOps1_2_sub hostOps1_2_fresh (W10 m)),
    .region (reg1 m),
    .host (hseg hostOps2 hostOps2_sub hostOps2_fresh (W12 m)) ]
/-- The program is the run of its segments. -/
theorem main_run (c : Dev nD) : main (F := F) c = Pipeline.Seg.run (segs m) := (main_chain c).trans (by chain_rfl)

set_option backward.isDefEq.respectTransparency.types false in
/-- From any memory with zero counters, every weakly fair execution of the program on the TensorCores terminates,
    nothing faulting, and every final state has every unscoped buffer of every core at the last boundary's contents. -/
theorem run_all (ρ : Dev nD → PrngReg) : θ_run defs (onTc (τ := τ) (main (F := F))) ⟨m, fun _ => 0, ρ⟩
    (fun r => ∀ c : Dev nD, ∀ b : Ref sig .tc, ¬ (Proc.devRef .tc b : DevRef τ sig).isScoped →
      r.2.mem ((c.tc : Thread nD τ).loc b) = W13 m c (Proc.devRef .tc b)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c b hb => h c _ (mem_uc b hb))

/-! ## Every argument array ends as launched

No host stretch writes an argument. A launch reads `main_arg1` through its first window, which is an input, so the
array ends the launch as it entered it; no other argument is an array of either launch. -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W4_of (c : Dev nD) (r : Ref sig .tc) (h : r ∉ hostOps0_3_W) : W4 m c (Proc.devRef .tc r) = W3 m c (Proc.devRef .tc r) :=
  StableHlo.after_of_writes_sub hostOps0_3 _ hostOps0_3_writes h
theorem W5_of (c : Dev nD) (r : Ref sig .tc) (h : r ∉ hostOps0_4_W) : W5 m c (Proc.devRef .tc r) = W4 m c (Proc.devRef .tc r) :=
  StableHlo.after_of_writes_sub hostOps0_4 _ hostOps0_4_writes h
theorem W6_of (c : Dev nD) (r : Ref sig .tc) (h : r ∉ hostOps0_5_W) : W6 m c (Proc.devRef .tc r) = W5 m c (Proc.devRef .tc r) :=
  StableHlo.after_of_writes_sub hostOps0_5 _ hostOps0_5_writes h
theorem W7_of (c : Dev nD) (r : Ref sig .tc) (h : r ∉ hostOps0_6_W) : W7 m c (Proc.devRef .tc r) = W6 m c (Proc.devRef .tc r) :=
  StableHlo.after_of_writes_sub hostOps0_6 _ hostOps0_6_writes h
theorem W9_of (c : Dev nD) (r : Ref sig .tc) (h : r ∉ hostOps1_W) : W9 m c (Proc.devRef .tc r) = W8 m c (Proc.devRef .tc r) :=
  StableHlo.after_of_writes_sub hostOps1 _ hostOps1_writes h
theorem W10_of (c : Dev nD) (r : Ref sig .tc) (h : r ∉ hostOps1_1_W) : W10 m c (Proc.devRef .tc r) = W9 m c (Proc.devRef .tc r) :=
  StableHlo.after_of_writes_sub hostOps1_1 _ hostOps1_1_writes h
theorem W11_of (c : Dev nD) (r : Ref sig .tc) (h : r ∉ hostOps1_2_W) : W11 m c (Proc.devRef .tc r) = W10 m c (Proc.devRef .tc r) :=
  StableHlo.after_of_writes_sub hostOps1_2 _ hostOps1_2_writes h
theorem W13_of (c : Dev nD) (r : Ref sig .tc) (h : r ∉ hostOps2_W) : W13 m c (Proc.devRef .tc r) = W12 m c (Proc.devRef .tc r) :=
  StableHlo.after_of_writes_sub hostOps2 _ hostOps2_writes h

theorem W13_main_arg0 (c : Dev nD) : W13 m c (Proc.devRef .tc main_arg0) = m ((c : Thread nD τ).loc main_arg0) :=
  (W13_of m c main_arg0 (by decide)).trans <| (W12_of_ne m c main_arg0 (by decide)).trans <| (W11_of m c main_arg0 (by decide)).trans <| (W10_of m c main_arg0 (by decide)).trans <| (W9_of m c main_arg0 (by decide)).trans <| (W8_of_ne m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans <| rfl
theorem W13_main_arg1 (c : Dev nD) : W13 m c (Proc.devRef .tc main_arg1) = m ((c : Thread nD τ).loc main_arg1) :=
  (W13_of m c main_arg1 (by decide)).trans <| ((W12_arr m c 0).trans (((dat1 (V11 m) c).arrAt_in 0 rfl _).trans (A_eq1 (V11 m) c 0))).trans <| (W11_of m c main_arg1 (by decide)).trans <| (W10_of m c main_arg1 (by decide)).trans <| (W9_of m c main_arg1 (by decide)).trans <| ((W8_arr m c 0).trans (((dat0 (V7 m) c).arrAt_in 0 rfl _).trans (A_eq0 (V7 m) c 0))).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans <| rfl
theorem W13_main_arg2 (c : Dev nD) : W13 m c (Proc.devRef .tc main_arg2) = m ((c : Thread nD τ).loc main_arg2) :=
  (W13_of m c main_arg2 (by decide)).trans <| (W12_of_ne m c main_arg2 (by decide)).trans <| (W11_of m c main_arg2 (by decide)).trans <| (W10_of m c main_arg2 (by decide)).trans <| (W9_of m c main_arg2 (by decide)).trans <| (W8_of_ne m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans <| rfl
theorem W13_main_arg3 (c : Dev nD) : W13 m c (Proc.devRef .tc main_arg3) = m ((c : Thread nD τ).loc main_arg3) :=
  (W13_of m c main_arg3 (by decide)).trans <| (W12_of_ne m c main_arg3 (by decide)).trans <| (W11_of m c main_arg3 (by decide)).trans <| (W10_of m c main_arg3 (by decide)).trans <| (W9_of m c main_arg3 (by decide)).trans <| (W8_of_ne m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans <| rfl
theorem W13_main_arg4 (c : Dev nD) : W13 m c (Proc.devRef .tc main_arg4) = m ((c : Thread nD τ).loc main_arg4) :=
  (W13_of m c main_arg4 (by decide)).trans <| (W12_of_ne m c main_arg4 (by decide)).trans <| (W11_of m c main_arg4 (by decide)).trans <| (W10_of m c main_arg4 (by decide)).trans <| (W9_of m c main_arg4 (by decide)).trans <| (W8_of_ne m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl
theorem W13_main_arg5 (c : Dev nD) : W13 m c (Proc.devRef .tc main_arg5) = m ((c : Thread nD τ).loc main_arg5) :=
  (W13_of m c main_arg5 (by decide)).trans <| (W12_of_ne m c main_arg5 (by decide)).trans <| (W11_of m c main_arg5 (by decide)).trans <| (W10_of m c main_arg5 (by decide)).trans <| (W9_of m c main_arg5 (by decide)).trans <| (W8_of_ne m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl

/-- The frame: every execution terminates and every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c main_arg0 (by decide)).trans (W13_main_arg0 m c), (h c main_arg1 (by decide)).trans (W13_main_arg1 m c),
      (h c main_arg2 (by decide)).trans (W13_main_arg2 m c), (h c main_arg3 (by decide)).trans (W13_main_arg3 m c),
      (h c main_arg4 (by decide)).trans (W13_main_arg4 m c), (h c main_arg5 (by decide)).trans (W13_main_arg5 m c)⟩) (run_all m ρ)

end Cert.Kernel.Hand

end
-- ==== Proof.KIDefs.lean ====
/-
  The two launches of the graph-convolution kernel, as data: what each launch finds in its windows' arrays,
  what one grid point leaves in the output block, and the contents of every buffer at each boundary between
  the host stretches and the launches of the program.

  One launch multiplies a 128-row band of the adjacency matrix (all 16384 columns) by the whole right factor
  [16384, 128], adds the bias row, and applies x ↦ x for x > 0, exp x − 1 otherwise; grid point t owns rows
  128·t … 128·t + 127 of the result.
-/
import proofs.«152001_j83820581749460_2_alg».proof.Proof.Gen.KernelIdeal.Launch
import proofs.«152001_j83820581749460_2_alg».proof.Proof.Gen.KernelIdeal.Skeleton
import proofs.«152001_j83820581749460_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

section Regions
-- the buffer contents a launch is entered with
variable (V : (c : Dev nD) → (b : Ref sig .tc) → Buf (Elt F) ((c : Thread nD τ).loc b))

/-! ## First launch -/

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S128x16384 := Rect.unit (s := S128x16384) ![0, 0] S128x16384.size inb_S128x16384_S128x16384_0_0
abbrev r0_1 : Rect S16384x128 := Rect.unit (s := S16384x128) ![0, 0] S16384x128.size inb_S16384x128_S16384x128_0_0
abbrev r0_2 : Rect S1x128 := Rect.unit (s := S1x128) ![0, 0] S1x128.size inb_S1x128_S1x128_0_0
abbrev r0_3 : Rect S128x128 := Rect.unit (s := S128x128) ![0, 0] S128x128.size inb_S128x128_S128x128_0_0

/-- The output block after one grid point: the one whole-block store, of the band times the right factor plus
    the bias row, activated. -/
def out0_3 (x0 : Vec F S128x16384 .f32) (x1 : Vec F S16384x128 .bf16) (x2 : Vec F S1x128 .f32) : Vec F S128x128 .f32 :=
  View.canon [⟨r0_3, k0_pay1 (View.ld x0 r0_0) (View.ld x1 r0_1) (View.ld x2 r0_2)⟩]

/-- The launch's bookkeeping on core `c`: the arrays as found; after grid point `t` every input block in place and the
    output block at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Second launch -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S128x16384 .f32) (x1 : Vec F S16384x128 .bf16) (x2 : Vec F S1x128 .f32) : Vec F S128x128 .f32 :=
  View.canon [⟨r0_3, k1_pay1 (View.ld x0 r0_0) (View.ld x1 r0_1) (View.ld x2 r0_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Regions

/-! ## The buffer contents at each boundary of the program

`W0` is the launch memory; a host stretch maps the contents through its operations; a kernel launch replaces its
windows' arrays by what its write-backs leave and keeps every other buffer. -/

abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev W4 (c : Dev nD) : Valuation τ sig (Elt F) := StableHlo.after hostOps0_3 (W3 m c)
abbrev W5 (c : Dev nD) : Valuation τ sig (Elt F) := StableHlo.after hostOps0_4 (W4 m c)
abbrev W6 (c : Dev nD) : Valuation τ sig (Elt F) := StableHlo.after hostOps0_5 (W5 m c)
abbrev W7 (c : Dev nD) : Valuation τ sig (Elt F) := StableHlo.after hostOps0_6 (W6 m c)
/-- The same read at the TensorCore's references: what the first launch is entered with. -/
abbrev V7 : (c : Dev nD) → (b : Ref sig .tc) → Buf (Elt F) ((c : Thread nD τ).loc b) := fun c b => W7 m c b
/-- After the first launch. -/
def W8 (c : Dev nD) : Valuation τ sig (Elt F) :=
  Pipeline.withArrays spec0 c (W7 m c) fun w => (dat0 (V7 m) c).arrAt w cfg0.N
abbrev W9 (c : Dev nD) : Valuation τ sig (Elt F) := StableHlo.after hostOps1 (W8 m c)
abbrev W10 (c : Dev nD) : Valuation τ sig (Elt F) := StableHlo.after hostOps1_1 (W9 m c)
abbrev W11 (c : Dev nD) : Valuation τ sig (Elt F) := StableHlo.after hostOps1_2 (W10 m c)
/-- What the second launch is entered with. -/
abbrev V11 : (c : Dev nD) → (b : Ref sig .tc) → Buf (Elt F) ((c : Thread nD τ).loc b) := fun c b => W11 m c b
/-- After the second launch. -/
def W12 (c : Dev nD) : Valuation τ sig (Elt F) :=
  Pipeline.withArrays spec1 c (W11 m c) fun w => (dat1 (V11 m) c).arrAt w cfg1.N
/-- At the program's return. -/
abbrev W13 (c : Dev nD) : Valuation τ sig (Elt F) := StableHlo.after hostOps2 (W12 m c)

theorem W8_arr (c : Dev nD) (w : Fin cfg0.W) :
    W8 m c (Proc.devRef .tc (Pipeline.arrRef spec0 w)) = (dat0 (V7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = W7 m c (Proc.devRef .tc b) := by
  unfold W8; exact Pipeline.withArrays_of_ne spec0 c _ _ b hb
theorem W12_arr (c : Dev nD) (w : Fin cfg1.W) :
    W12 m c (Proc.devRef .tc (Pipeline.arrRef spec1 w)) = (dat1 (V11 m) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m c (Proc.devRef .tc b) = W11 m c (Proc.devRef .tc b) := by
  unfold W12; exact Pipeline.withArrays_of_ne spec1 c _ _ b hb

end Cert.KernelIdeal.Hand

end
-- ==== Proof.KIFrame.lean ====
/-
  The frame of the kernel program: two launches of the graph-convolution kernel among eleven host stretches.

  Per launch, at the buffer contents `V` the launch is entered with: each input window's staging buffer holds
  its block at every grid point; the one whole-block store covers the output block; the body's triple; the body
  obligation of the pipeline. Then the run: a thread state per boundary (every unscoped buffer at that boundary's
  contents, the generator register at some state, nothing owed), a segment per stretch and per launch, and the
  program's run from the launch memory to the last boundary's contents, at which every argument array reads as launched.
-/
import proofs.«152001_j83820581749460_2_alg».proof.Proof.KIDefs
import proofs.«152001_j83820581749460_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

section Regions
variable (V : (c : Dev nD) → (b : Ref sig .tc) → Buf (Elt F) ((c : Thread nD τ).loc b))

/-! ## Launch 0: the windows' blocks -/

/-- Input window 0's current staging buffer holds its block at every grid point, fetched there or not, for any
    bookkeeping whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1 (the right factor, fetched once). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2 (the bias row, fetched once). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one store is of the whole output block, so it covers it. -/
theorem cover0_3 (p0 : Vec F S128x128 .f32) (y : S128x128.Idx) :
    ∃ pc ∈ ([⟨r0_3, p0⟩] : List (View.Piece (Elt F) S128x128 .f32)), y ∈ pc.1.set :=
  View.cover_of_tiled [⟨r0_3, p0⟩] S128x128.size (by rfl) y

set_option maxHeartbeats 1000000 in
/-- The kernel body on whole staging memrefs, the three inputs' at read contents `x0 x1 x2` and the output's at
    anything, runs to the continuation holding the inputs' as they were and the output's at `out0_3` of them. The
    body reads the output block once before storing it; the value read is not used. -/
theorem sound_kernel0 (c : Dev nD) (E : Set ℕ) (i : grid0.Coords)
    (arg1 : Memref sig .tc .vmem S128x16384 .f32) (harg1 : arg1.IsWhole)
    (arg2 : Memref sig .tc .vmem S16384x128 .bf16) (harg2 : arg2.IsWhole)
    (arg3 : Memref sig .tc .vmem S1x128 .f32) (harg3 : arg3.IsWhole)
    (arg4 : Memref sig .tc .vmem S128x128 .f32) (harg4 : arg4.IsWhole)
    (x0 : Vec F S128x16384 .f32) (x1 : Vec F S16384x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__gcn_kernel i arg1 harg1 arg2 harg2 arg3 harg3 arg4 harg4) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- Each input's current staging buffer holds its block at every grid point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at grid point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the inputs' memrefs hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

/-! ## Launch 1: the windows' blocks -/

/-- Input window 0's current staging buffer holds its block at every grid point, fetched there or not, for any
    bookkeeping whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1 (the right factor, fetched once). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for input window 2 (the bias row, fetched once). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The one store is of the whole output block, so it covers it. -/
theorem cover1_3 (p0 : Vec F S128x128 .f32) (y : S128x128.Idx) :
    ∃ pc ∈ ([⟨r0_3, p0⟩] : List (View.Piece (Elt F) S128x128 .f32)), y ∈ pc.1.set :=
  View.cover_of_tiled [⟨r0_3, p0⟩] S128x128.size (by rfl) y

set_option maxHeartbeats 1000000 in
/-- The kernel body on whole staging memrefs, the three inputs' at read contents `x0 x1 x2` and the output's at
    anything, runs to the continuation holding the inputs' as they were and the output's at `out1_3` of them. The
    body reads the output block once before storing it; the value read is not used. -/
theorem sound_kernel1 (c : Dev nD) (E : Set ℕ) (i : grid1.Coords)
    (arg1 : Memref sig .tc .vmem S128x16384 .f32) (harg1 : arg1.IsWhole)
    (arg2 : Memref sig .tc .vmem S16384x128 .bf16) (harg2 : arg2.IsWhole)
    (arg3 : Memref sig .tc .vmem S1x128 .f32) (harg3 : arg3.IsWhole)
    (arg4 : Memref sig .tc .vmem S128x128 .f32) (harg4 : arg4.IsWhole)
    (x0 : Vec F S128x16384 .f32) (x1 : Vec F S16384x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__gcn_kernel i arg1 harg1 arg2 harg2 arg3 harg3 arg4 harg4) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- Each input's current staging buffer holds its block at every grid point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at grid point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the inputs' memrefs hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every grid point. -/
theorem body_obligation1 (c : Dev nD) : BodyObligation (dat1 (F := F) V c) (defs₀ (F := F)) Variants.none () Set.univ := fun t => by
  rw [bigSep_W1, bigSep_W1]
  exact sound_body1 V c t

end Regions

/-! # The run: the program's thirteen segments from the launch to the return -/

/-- The contents after each launch, read at the TensorCore's references. -/
abbrev V8 : (c : Dev nD) → (b : Ref sig .tc) → Buf (Elt F) ((c : Thread nD τ).loc b) := fun c b => W8 m c b
abbrev V12 : (c : Dev nD) → (b : Ref sig .tc) → Buf (Elt F) ((c : Thread nD τ).loc b) := fun c b => W12 m c b

/-- At the first launch's exit each of its arrays holds what the pipeline leaves and every other buffer what it held
    at entry. -/
theorem hF0 (c : Dev nD) (w : Fin cfg0.W) : (dat0 (V7 m) c).arrAt w cfg0.N = V8 m c (Pipeline.arrRef spec0 w) :=
  (W8_arr m c w).symm
theorem hrest0 (c : Dev nD) : ∀ b, b ∉ Finset.univ.image (Pipeline.arrRef spec0) → V8 m c b = V7 m c b :=
  fun b hb => W8_of_ne m c b fun w e => hb (Finset.mem_image.mpr ⟨w, Finset.mem_univ _, e⟩)
/-- The same at the second launch's exit. -/
theorem hF1 (c : Dev nD) (w : Fin cfg1.W) : (dat1 (V11 m) c).arrAt w cfg1.N = V12 m c (Pipeline.arrRef spec1 w) :=
  (W12_arr m c w).symm
theorem hrest1 (c : Dev nD) : ∀ b, b ∉ Finset.univ.image (Pipeline.arrRef spec1) → V12 m c b = V11 m c b :=
  fun b hb => W12_of_ne m c b fun w e => hb (Finset.mem_image.mpr ⟨w, Finset.mem_univ _, e⟩)

/-! ## The bookkeeping family and the thread state -/

/-- No pipeline has a prefetched table. -/
abbrev adm : (p : Fin 2) → (pcfgs (F := F) p).Adm := fun p => (cfgs p).toPCfg_adm
/-- Each launch's bookkeeping, at the contents it is entered with. -/
def pdats : (p : Fin 2) → (c : Dev nD) → Dat τ (Elt F) Unit ℕ (UR sig nD τ) ℕ (Pipeline.pin (pcfgs (F := F)) adm p) c
  | ⟨0, _⟩ => fun c => dat0 (V7 m) c
  | ⟨1, _⟩ => fun c => dat1 (V11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A host stretch as a segment: its operations over the unscoped references from the contents `W`, `R` riding along;
    it ends with those references at the stretch's image of `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W13 m c) ∗ ∃ r, prngReg c r)

/-! ## The launches as segments -/

set_option backward.isDefEq.respectTransparency.types false in
/-- Launch 0 over the thread state: entered from every unscoped buffer at `W7`, left at `W8`. Its arrays
    are split out of the unscoped buffers and put back at the exit contents; the generator register goes into the
    pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m) c).loose
  hwaits := Pipeline.hwaits_of_owed_zero _ _ _ _ L lv 0 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (V7 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V7 m c) (V8 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W11`, left at `W12`. Its arrays
    are split out of the unscoped buffers and put back at the exit contents; the generator register goes into the
    pipeline's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m) c).loose
  hwaits := Pipeline.hwaits_of_owed_zero _ _ _ _ L lv 1 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec1 c (V11 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V11 m c) (V12 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- The program's 13 segments in order: a host segment per stretch from its boundary's contents, a launch per call. -/
abbrev segs : List (Pipeline.Seg (pcfgs (F := F)) adm (pdats m) () defs₀ 𝒱₀ L lv) :=
  [
    .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .region (reg0 m),
    .host (hseg hostOps1 hostOps1_sub hostOps1_fresh (W8 m)),
    .host (hseg hostOps1_1 hostOps1_1_sub hostOps1_1_fresh (W9 m)),
    .host (hseg hostOps1_2 hostOps1_2_sub hostOps1_2_fresh (W10 m)),
    .region (reg1 m),
    .host (hseg hostOps2 hostOps2_sub hostOps2_fresh (W12 m)) ]
/-- The program is the run of its segments. -/
theorem main_run (c : Dev nD) : main (F := F) c = Pipeline.Seg.run (segs m) := (main_chain c).trans (by chain_rfl)

set_option backward.isDefEq.respectTransparency.types false in
/-- From any memory with zero counters, every weakly fair execution of the program on the TensorCores terminates,
    nothing faulting, and every final state has every unscoped buffer of every core at the last boundary's contents. -/
theorem run_all (ρ : Dev nD → PrngReg) : θ_run defs (onTc (τ := τ) (main (F := F))) ⟨m, fun _ => 0, ρ⟩
    (fun r => ∀ c : Dev nD, ∀ b : Ref sig .tc, ¬ (Proc.devRef .tc b : DevRef τ sig).isScoped →
      r.2.mem ((c.tc : Thread nD τ).loc b) = W13 m c (Proc.devRef .tc b)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c b hb => h c _ (mem_uc b hb))

/-! ## Every argument array ends as launched

No host stretch writes an argument. A launch reads `main_arg1` through its first window, which is an input, so the
array ends the launch as it entered it; no other argument is an array of either launch. -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W4_of (c : Dev nD) (r : Ref sig .tc) (h : r ∉ hostOps0_3_W) : W4 m c (Proc.devRef .tc r) = W3 m c (Proc.devRef .tc r) :=
  StableHlo.after_of_writes_sub hostOps0_3 _ hostOps0_3_writes h
theorem W5_of (c : Dev nD) (r : Ref sig .tc) (h : r ∉ hostOps0_4_W) : W5 m c (Proc.devRef .tc r) = W4 m c (Proc.devRef .tc r) :=
  StableHlo.after_of_writes_sub hostOps0_4 _ hostOps0_4_writes h
theorem W6_of (c : Dev nD) (r : Ref sig .tc) (h : r ∉ hostOps0_5_W) : W6 m c (Proc.devRef .tc r) = W5 m c (Proc.devRef .tc r) :=
  StableHlo.after_of_writes_sub hostOps0_5 _ hostOps0_5_writes h
theorem W7_of (c : Dev nD) (r : Ref sig .tc) (h : r ∉ hostOps0_6_W) : W7 m c (Proc.devRef .tc r) = W6 m c (Proc.devRef .tc r) :=
  StableHlo.after_of_writes_sub hostOps0_6 _ hostOps0_6_writes h
theorem W9_of (c : Dev nD) (r : Ref sig .tc) (h : r ∉ hostOps1_W) : W9 m c (Proc.devRef .tc r) = W8 m c (Proc.devRef .tc r) :=
  StableHlo.after_of_writes_sub hostOps1 _ hostOps1_writes h
theorem W10_of (c : Dev nD) (r : Ref sig .tc) (h : r ∉ hostOps1_1_W) : W10 m c (Proc.devRef .tc r) = W9 m c (Proc.devRef .tc r) :=
  StableHlo.after_of_writes_sub hostOps1_1 _ hostOps1_1_writes h
theorem W11_of (c : Dev nD) (r : Ref sig .tc) (h : r ∉ hostOps1_2_W) : W11 m c (Proc.devRef .tc r) = W10 m c (Proc.devRef .tc r) :=
  StableHlo.after_of_writes_sub hostOps1_2 _ hostOps1_2_writes h
theorem W13_of (c : Dev nD) (r : Ref sig .tc) (h : r ∉ hostOps2_W) : W13 m c (Proc.devRef .tc r) = W12 m c (Proc.devRef .tc r) :=
  StableHlo.after_of_writes_sub hostOps2 _ hostOps2_writes h

theorem W13_main_arg0 (c : Dev nD) : W13 m c (Proc.devRef .tc main_arg0) = m ((c : Thread nD τ).loc main_arg0) :=
  (W13_of m c main_arg0 (by decide)).trans <| (W12_of_ne m c main_arg0 (by decide)).trans <| (W11_of m c main_arg0 (by decide)).trans <| (W10_of m c main_arg0 (by decide)).trans <| (W9_of m c main_arg0 (by decide)).trans <| (W8_of_ne m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans <| rfl
theorem W13_main_arg1 (c : Dev nD) : W13 m c (Proc.devRef .tc main_arg1) = m ((c : Thread nD τ).loc main_arg1) :=
  (W13_of m c main_arg1 (by decide)).trans <| ((W12_arr m c 0).trans (((dat1 (V11 m) c).arrAt_in 0 rfl _).trans (A_eq1 (V11 m) c 0))).trans <| (W11_of m c main_arg1 (by decide)).trans <| (W10_of m c main_arg1 (by decide)).trans <| (W9_of m c main_arg1 (by decide)).trans <| ((W8_arr m c 0).trans (((dat0 (V7 m) c).arrAt_in 0 rfl _).trans (A_eq0 (V7 m) c 0))).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans <| rfl
theorem W13_main_arg2 (c : Dev nD) : W13 m c (Proc.devRef .tc main_arg2) = m ((c : Thread nD τ).loc main_arg2) :=
  (W13_of m c main_arg2 (by decide)).trans <| (W12_of_ne m c main_arg2 (by decide)).trans <| (W11_of m c main_arg2 (by decide)).trans <| (W10_of m c main_arg2 (by decide)).trans <| (W9_of m c main_arg2 (by decide)).trans <| (W8_of_ne m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans <| rfl
theorem W13_main_arg3 (c : Dev nD) : W13 m c (Proc.devRef .tc main_arg3) = m ((c : Thread nD τ).loc main_arg3) :=
  (W13_of m c main_arg3 (by decide)).trans <| (W12_of_ne m c main_arg3 (by decide)).trans <| (W11_of m c main_arg3 (by decide)).trans <| (W10_of m c main_arg3 (by decide)).trans <| (W9_of m c main_arg3 (by decide)).trans <| (W8_of_ne m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans <| rfl
theorem W13_main_arg4 (c : Dev nD) : W13 m c (Proc.devRef .tc main_arg4) = m ((c : Thread nD τ).loc main_arg4) :=
  (W13_of m c main_arg4 (by decide)).trans <| (W12_of_ne m c main_arg4 (by decide)).trans <| (W11_of m c main_arg4 (by decide)).trans <| (W10_of m c main_arg4 (by decide)).trans <| (W9_of m c main_arg4 (by decide)).trans <| (W8_of_ne m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl
theorem W13_main_arg5 (c : Dev nD) : W13 m c (Proc.devRef .tc main_arg5) = m ((c : Thread nD τ).loc main_arg5) :=
  (W13_of m c main_arg5 (by decide)).trans <| (W12_of_ne m c main_arg5 (by decide)).trans <| (W11_of m c main_arg5 (by decide)).trans <| (W10_of m c main_arg5 (by decide)).trans <| (W9_of m c main_arg5 (by decide)).trans <| (W8_of_ne m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl

/-- The frame: every execution terminates and every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c main_arg0 (by decide)).trans (W13_main_arg0 m c), (h c main_arg1 (by decide)).trans (W13_main_arg1 m c),
      (h c main_arg2 (by decide)).trans (W13_main_arg2 m c), (h c main_arg3 (by decide)).trans (W13_main_arg3 m c),
      (h c main_arg4 (by decide)).trans (W13_main_arg4 m c), (h c main_arg5 (by decide)).trans (W13_main_arg5 m c)⟩) (run_all m ρ)

end Cert.KernelIdeal.Hand

end
-- ==== Proof.KIStages.lean ====
/-
  What each host stretch of the kernel program leaves in the buffers the next steps read, as a pure term of the
  contents the stretch starts from — stated for ANY starting contents, so that the stretches compose by
  substitution: the three column slices of z and the activation's comparison and eˣ − 1 on them, the two selects,
  the concatenation of the two activated branches, a layer's weight matrix and bias row picked out of the stacked
  ones, the block-diagonal weight, the doubled bias row, the product of the features with the block-diagonal weight,
  and the closing concatenation, product and bias.
-/
import proofs.«152001_j83820581749460_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (V : Valuation τ sig (Elt F))

/-- The zero and the one of the activation, as the programs spell them. -/
abbrev zero64 : FVec F S16384x64 .f32 := broadcastInDim S16384x64 ![] Facts₀.bcast_S_S16384x64 (constant S_ .f32 0x00000000#32)
abbrev one64 : FVec F S16384x64 .f32 := broadcastInDim S16384x64 ![] Facts₀.bcast_S_S16384x64 (constant S_ .f32 0x3F800000#32)
/-- The zero block of the block-diagonal weight. -/
abbrev zeroW : FVec F S64x64 .f32 := broadcastInDim S64x64 ![] Facts₀.bcast_S_S64x64 (constant S_ .f32 0x00000000#32)

/-- The block-diagonal weight [[w, 0], [0, w]] of a layer. -/
abbrev blockDiag (w z : FVec F S64x64 .f32) : FVec F S128x128 .f32 :=
  concatenate S128x128 0 [⟨S64x128, concatenate S64x128 1 [⟨S64x64, w⟩, ⟨S64x64, z⟩] Facts₀.concatenates_S64x64_S64x64_S64x128_d1⟩,
    ⟨S64x128, concatenate S64x128 1 [⟨S64x64, z⟩, ⟨S64x64, w⟩] Facts₀.concatenates_S64x64_S64x64_S64x128_d1⟩]
    Facts₀.concatenates_S64x128_S64x128_S128x128_d0

/-! ### Before the first launch -/

theorem s0_v0 : after hostOps0 V main_v0 = extractStridedSlice S16384x64 ![0, 0] (V main_arg0) Facts₀.slices_S16384x192_S16384x64_0_0 := by
  after_results <;> try rfl
theorem s0_v1 : after hostOps0 V main_v1 = extractStridedSlice S16384x64 ![0, 64] (V main_arg0) Facts₀.slices_S16384x192_S16384x64_0_64 := by
  after_results <;> try rfl
theorem s0_v2 : after hostOps0 V main_v2 = extractStridedSlice S16384x64 ![0, 128] (V main_arg0) Facts₀.slices_S16384x192_S16384x64_0_128 := by
  after_results <;> try rfl
theorem s0_v4 : after hostOps0 V main_v4
    = cmpf .ogt (extractStridedSlice S16384x64 ![0, 0] (V main_arg0) Facts₀.slices_S16384x192_S16384x64_0_0) (zero64 (F := F)) := by
  after_results <;> try rfl
theorem s0_v7 : after hostOps0 V main_v7
    = subf (Host.exp (extractStridedSlice S16384x64 ![0, 0] (V main_arg0) Facts₀.slices_S16384x192_S16384x64_0_0)) (one64 (F := F)) := by
  after_results <;> try rfl
theorem s01_v8 : after hostOps0_1 V main_v8 = select (V main_v4) (V main_v0) (V main_v7) := by
  after_results <;> try rfl
theorem s02_v10 : after hostOps0_2 V main_v10 = cmpf .ogt (V main_v1) (zero64 (F := F)) := by
  after_results <;> try rfl
theorem s02_v13 : after hostOps0_2 V main_v13 = subf (Host.exp (V main_v1)) (one64 (F := F)) := by
  after_results <;> try rfl
theorem s03_v14 : after hostOps0_3 V main_v14 = select (V main_v10) (V main_v1) (V main_v13) := by
  after_results <;> try rfl
theorem s04_v15 : after hostOps0_4 V main_v15
    = concatenate S16384x128 1 [⟨S16384x64, V main_v8⟩, ⟨S16384x64, V main_v14⟩] Facts₀.concatenates_S16384x64_S16384x64_S16384x128_d1 := by
  after_results <;> try rfl
theorem s04_v17 : after hostOps0_4 V main_v17
    = shapeCast S64x64 (extractStridedSlice S1x64x64 ![0, 0, 0] (V main_arg2) Facts₀.slices_S2x64x64_S1x64x64_0_0_0) Facts₀.shapeCasts_S1x64x64_S64x64 := by
  after_results <;> try rfl
theorem s04_v19 : after hostOps0_4 V main_v19
    = shapeCast S64 (extractStridedSlice S1x64 ![0, 0] (V main_arg3) Facts₀.slices_S2x64_S1x64_0_0) Facts₀.shapeCasts_S1x64_S64 := by
  after_results <;> try rfl
theorem s04_v20 : after hostOps0_4 V main_v20 = zeroW (F := F) := by
  after_results <;> try rfl
theorem s05_v21 : after hostOps0_5 V main_v21 = blockDiag (V main_v17) (V main_v20) := by
  after_results <;> try rfl
theorem s06_v23 : after hostOps0_6 V main_v23
    = shapeCast S1x128 (concatenate S128 0 [⟨S64, V main_v19⟩, ⟨S64, V main_v19⟩] Facts₀.concatenates_S64_S64_S128_d0) Facts₀.shapeCasts_S128_S1x128 := by
  after_results <;> try rfl
theorem s06_v25 : after hostOps0_6 V main_v25
    = truncf .bf16 (Host.dotGeneral dot_S16384x128_S128x128_S16384x128_1_0_0_1_n_n (some .fp32) (V main_v15) (V main_v21)) Facts₀.bitsLt_bf16_f32 := by
  after_results <;> try rfl

/-! ### Between the launches -/

theorem s1_v28 : after hostOps1 V main_v28
    = shapeCast S64x64 (extractStridedSlice S1x64x64 ![1, 0, 0] (V main_arg2) Facts₀.slices_S2x64x64_S1x64x64_1_0_0) Facts₀.shapeCasts_S1x64x64_S64x64 := by
  after_results <;> try rfl
theorem s1_v30 : after hostOps1 V main_v30
    = shapeCast S64 (extractStridedSlice S1x64 ![1, 0] (V main_arg3) Facts₀.slices_S2x64_S1x64_1_0) Facts₀.shapeCasts_S1x64_S64 := by
  after_results <;> try rfl
theorem s1_v31 : after hostOps1 V main_v31 = zeroW (F := F) := by
  after_results <;> try rfl
theorem s11_v32 : after hostOps1_1 V main_v32 = blockDiag (V main_v28) (V main_v31) := by
  after_results <;> try rfl
theorem s12_v34 : after hostOps1_2 V main_v34
    = shapeCast S1x128 (concatenate S128 0 [⟨S64, V main_v30⟩, ⟨S64, V main_v30⟩] Facts₀.concatenates_S64_S64_S128_d0) Facts₀.shapeCasts_S128_S1x128 := by
  after_results <;> try rfl
theorem s12_v36 : after hostOps1_2 V main_v36
    = truncf .bf16 (Host.dotGeneral dot_S16384x128_S128x128_S16384x128_1_0_0_1_n_n (some .fp32) (V main_v26) (V main_v32)) Facts₀.bitsLt_bf16_f32 := by
  after_results <;> try rfl

/-! ### After the second launch -/

/-- The closing steps on the second launch's result `y`, the untouched third column block `za` of z, the output
    weight and bias: the two halves of `y` and `za` side by side, times the weight, plus the bias on every row. -/
abbrev closing (y : FVec F S16384x128 .f32) (za : FVec F S16384x64 .f32) (wl : FVec F S192x64 .f32) (bl : FVec F S64 .f32) :
    FVec F S16384x64 .f32 :=
  addf (Host.dotGeneral dot_S16384x192_S192x64_S16384x64_1_0_0_1_n_n (some .fp32)
      (concatenate S16384x192 1 [⟨S16384x64, extractStridedSlice S16384x64 ![0, 0] y Facts₀.slices_S16384x128_S16384x64_0_0⟩,
        ⟨S16384x64, extractStridedSlice S16384x64 ![0, 64] y Facts₀.slices_S16384x128_S16384x64_0_64⟩, ⟨S16384x64, za⟩]
        Facts₀.concatenates_S16384x64_S16384x64_S16384x64_S16384x192_d1) wl)
    (broadcastInDim S16384x64 ![0, 1] Facts₀.bcast_S1x64_S16384x64_0_1 (broadcastInDim S1x64 ![1] Facts₀.bcast_S64_S1x64_1 bl))

theorem s2_v44 : after hostOps2 V main_v44 = closing (V main_v37) (V main_v2) (V main_arg4) (V main_arg5) := by
  after_results <;> try rfl

end Cert.KernelIdeal.Hand

end
-- ==== Proof.KIPieces.lean ====
/-
  The host-side pieces of the kernel program as whole-array functions: the activation as the host steps spell it,
  the three column blocks of z, the activated features of both branches side by side, a layer's weight and bias out
  of the stacked ones, the doubled bias row, and the features times the block-diagonal weight.
-/
import proofs.«152001_j83820581749460_2_alg».proof.Proof.KIStages

noncomputable section

namespace Cert.KernelIdeal.Hand

open Cert.KernelIdeal Cert.KernelIdeal.Gen
open Idealize.ShloMosaic

/-! ## The pieces, as whole-array functions -/

section Pieces
variable {F : FTy → Type} [FloatOps F]

/-- The activation as the host steps spell it: select on x > 0 between x and eˣ − 1. -/
abbrev eluK (x : FVec F S16384x64 .f32) : FVec F S16384x64 .f32 :=
  select (cmpf .ogt x (zero64 (F := F))) x (subf (Host.exp x) (one64 (F := F)))

/-- The three column blocks of z. -/
abbrev zsK (z : FVec F S16384x192 .f32) : FVec F S16384x64 .f32 := extractStridedSlice S16384x64 ![0, 0] z Facts₀.slices_S16384x192_S16384x64_0_0
abbrev zuK (z : FVec F S16384x192 .f32) : FVec F S16384x64 .f32 := extractStridedSlice S16384x64 ![0, 64] z Facts₀.slices_S16384x192_S16384x64_0_64
abbrev zaK (z : FVec F S16384x192 .f32) : FVec F S16384x64 .f32 := extractStridedSlice S16384x64 ![0, 128] z Facts₀.slices_S16384x192_S16384x64_0_128

/-- The activated features of both branches side by side. -/
abbrev x0K (z : FVec F S16384x192 .f32) : FVec F S16384x128 .f32 :=
  concatenate S16384x128 1 [⟨S16384x64, eluK (zsK z)⟩, ⟨S16384x64, eluK (zuK z)⟩] Facts₀.concatenates_S16384x64_S16384x64_S16384x128_d1

/-- A layer's weight matrix and bias, out of the stacked ones. -/
abbrev w0K (ws : FVec F S2x64x64 .f32) : FVec F S64x64 .f32 :=
  shapeCast S64x64 (extractStridedSlice S1x64x64 ![0, 0, 0] ws Facts₀.slices_S2x64x64_S1x64x64_0_0_0) Facts₀.shapeCasts_S1x64x64_S64x64
abbrev w1K (ws : FVec F S2x64x64 .f32) : FVec F S64x64 .f32 :=
  shapeCast S64x64 (extractStridedSlice S1x64x64 ![1, 0, 0] ws Facts₀.slices_S2x64x64_S1x64x64_1_0_0) Facts₀.shapeCasts_S1x64x64_S64x64
abbrev b0K (bs : FVec F S2x64 .f32) : FVec F S64 .f32 :=
  shapeCast S64 (extractStridedSlice S1x64 ![0, 0] bs Facts₀.slices_S2x64_S1x64_0_0) Facts₀.shapeCasts_S1x64_S64
abbrev b1K (bs : FVec F S2x64 .f32) : FVec F S64 .f32 :=
  shapeCast S64 (extractStridedSlice S1x64 ![1, 0] bs Facts₀.slices_S2x64_S1x64_1_0) Facts₀.shapeCasts_S1x64_S64

/-- The doubled bias row [b b], as a [1, 128] array. -/
abbrev btileK (b : FVec F S64 .f32) : FVec F S1x128 .f32 :=
  shapeCast S1x128 (concatenate S128 0 [⟨S64, b⟩, ⟨S64, b⟩] Facts₀.concatenates_S64_S64_S128_d0) Facts₀.shapeCasts_S128_S1x128

/-- The features times the block-diagonal weight, in the launch's operand format. -/
abbrev xwK (x : FVec F S16384x128 .f32) (w : FVec F S64x64 .f32) : FVec F S16384x128 .bf16 :=
  truncf .bf16 (Host.dotGeneral dot_S16384x128_S128x128_S16384x128_1_0_0_1_n_n (some .fp32) x (blockDiag w (zeroW (F := F))))
    Facts₀.bitsLt_bf16_f32

end Pieces

end Cert.KernelIdeal.Hand

end
-- ==== Proof.Act.lean ====
/-
  The activation x ↦ x for x > 0 and eˣ − 1 otherwise, on the extended reals, and the two spellings of it
  that the programs use: a select on the comparison with zero whose other branch is eˣ − 1 directly, or
  1 · (e^{x'} − 1) with x' the argument where it is not positive (and zero where it is).
-/
import Idealize.ShloMosaic.PureOps.Ideal
import Idealize.ShloMosaic.PureOps.Ideal.Laws

noncomputable section

namespace Cert.Act

open Idealize.ShloMosaic

/-- The pattern of the float 1.0 denotes the real 1. -/
theorem ofBits_one_f32 : Ideal.ofBits .f32 0x3F800000#32 = 1 := by
  simp [Ideal.ofBits, Ideal.ieee]
  first | (rw [← EReal.coe_mul]; norm_num) | (norm_cast; norm_num) | (simp [← EReal.coe_mul])

/-- x for x > 0, eˣ − 1 otherwise. -/
def act (y : EReal) : EReal := if 0 < y then y else Ideal.exp y - 1

theorem select_cmp_ogt_zero {α : Type} (y : EReal) (a b : α) :
    Scalar.select (FloatOps.cmpf (F := Ideal) (φ := .f32) .ogt y (Ideal.ofBits .f32 0x00000000#32)) a b
      = if 0 < y then a else b := by
  rw [Ideal.ofBits_zero_f32]
  show (if Ideal.cmp .ogt y 0 = 1 then a else b) = _
  unfold Ideal.cmp
  by_cases h : (0 : EReal) < y
  · simp [h]
  · simp [h]

/-- The select whose other branch is eˣ − 1. -/
theorem act_direct (y : EReal) :
    Scalar.select (FloatOps.cmpf (F := Ideal) (φ := .f32) .ogt y (Ideal.ofBits .f32 0x00000000#32)) y
        (Ideal.exp y - Ideal.ofBits .f32 0x3F800000#32) = act y := by
  rw [select_cmp_ogt_zero, ofBits_one_f32]; rfl

/-- The same with the operations named as the float interface names them. -/
theorem act_direct' (y : Ideal .f32) :
    Scalar.select (FloatOps.cmpf .ogt y (FloatOps.ofBits .f32 0x00000000#32)) y
        (FloatOps.subf (FloatOps.exp y) (FloatOps.ofBits .f32 0x3F800000#32)) = act y :=
  act_direct y

/-- The select whose other branch is 1 · (e^{x'} − 1), x' the argument with its positive values replaced by zero. -/
theorem act_guarded (y : EReal) :
    Scalar.select (FloatOps.cmpf (F := Ideal) (φ := .f32) .ogt y (Ideal.ofBits .f32 0x00000000#32)) y
        (Ideal.ofBits .f32 0x3F800000#32
          * (Ideal.exp (Scalar.select (FloatOps.cmpf (F := Ideal) (φ := .f32) .ogt y (Ideal.ofBits .f32 0x00000000#32))
              (Ideal.ofBits .f32 0x00000000#32) y) - 1)) = act y := by
  rw [select_cmp_ogt_zero, select_cmp_ogt_zero, ofBits_one_f32, one_mul]
  unfold act
  by_cases h : (0 : EReal) < y
  · rw [if_pos h, if_pos h]
  · rw [if_neg h, if_neg h, if_neg h]

/-- The guarded spelling with the operations named as the float interface names them. -/
theorem act_guarded' (y : Ideal .f32) :
    Scalar.select (FloatOps.cmpf .ogt y (FloatOps.ofBits .f32 0x00000000#32)) y
        (FloatOps.mulf (FloatOps.ofBits .f32 0x3F800000#32)
          (FloatOps.hostUnary .expm1 (Scalar.select (FloatOps.cmpf .ogt y (FloatOps.ofBits .f32 0x00000000#32))
            (FloatOps.ofBits .f32 0x00000000#32) y))) = act y :=
  act_guarded y

/-- The direct spelling with the host's exponential. -/
theorem act_directH (y : Ideal .f32) :
    Scalar.select (FloatOps.cmpf .ogt y (FloatOps.ofBits .f32 0x00000000#32)) y
        (FloatOps.subf (FloatOps.hostUnary .exp y) (FloatOps.ofBits .f32 0x3F800000#32)) = act y :=
  act_direct y

end Cert.Act

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.GcnPoint.lean ====
/-
  One grid point of the graph-convolution kernel, read at an entry: with a 128-row band `a` of the adjacency
  matrix, the whole right factor `x` and the bias row `b`, entry (p, q) of the stored block is
  act (∑ₑ a(p,e) · x(e,q) + b(0,q)), where act y is y for y > 0 and e^y − 1 otherwise. The change of float format
  on the band is the identity on the extended reals, and the product's accumulator is the zero block.
-/
import proofs.«152001_j83820581749460_2_alg».proof.Proof.Gen.KernelIdeal.Skeleton
import proofs.«152001_j83820581749460_2_alg».proof.Proof.Act
import proofs.«152001_j83820581749460_2_alg».proof.Proof.LibMatmulNN
import Idealize.ShloMosaic.Lib.ValueLayout
import Idealize.ShloMosaic.Lib.Pipeline.Value

noncomputable section

namespace Cert.KernelIdeal.Hand

open Cert.KernelIdeal Cert.KernelIdeal.Gen Cert.Act
open Idealize.ShloMosaic Idealize.ShloMosaic.ValueIdx

/-- One entry of a graph-convolution layer: row r of the adjacency matrix against column q of the right factor,
    plus the bias, activated. -/
def gcnAt (adj : FVec Ideal S16384x16384 .f32) (xw : FVec Ideal S16384x128 .bf16) (bt : FVec Ideal S1x128 .f32)
    (r : Fin 16384) (q : Fin 128) : EReal :=
  act ((∑ e : Fin 16384, adj (ix2 r e) * xw (ix2 e q)) + bt (ix2 (0 : Fin 1) q))

/-- The layer's whole result array. -/
def gcnArr (adj : FVec Ideal S16384x16384 .f32) (xw : FVec Ideal S16384x128 .bf16) (bt : FVec Ideal S1x128 .f32) :
    S16384x128.Idx → EReal :=
  fun i => gcnAt adj xw bt ⟨(i 0).val, idx2_lt0 i⟩ ⟨(i 1).val, idx2_lt1 i⟩

theorem gcnArr_apply (adj : FVec Ideal S16384x16384 .f32) (xw : FVec Ideal S16384x128 .bf16) (bt : FVec Ideal S1x128 .f32)
    (r : Fin 16384) (q : Fin 128) : gcnArr adj xw bt (ix2 r q) = gcnAt adj xw bt r q := rfl

/-- The band-times-factor product plus the bias row, at an entry. -/
theorem preact_apply (x0 : FVec Ideal S128x16384 .f32) (x1 : FVec Ideal S16384x128 .bf16) (x2 : FVec Ideal S1x128 .f32)
    (p q : Fin 128) :
    addf (matmul dot_S128x16384_S16384x128_S128x128_1_0_0_1_n_n none (truncf .bf16 x0 Facts₀.bitsLt_bf16_f32)
        (shapeCast S16384x128 x1 Facts₀.shapeCasts_S16384x128_S16384x128) (constant (F := Ideal) S128x128 .f32 0x00000000#32))
      (broadcastTo S128x128 (shapeCast S1x128 x2 Facts₀.shapeCasts_S1x128_S1x128) Facts₀.broadcasts_S1x128_S128x128) (ix2 p q)
      = (∑ e : Fin 16384, x0 (ix2 p e) * x1 (ix2 e q)) + x2 (ix2 (0 : Fin 1) q) := by
  rw [addf_apply, broadcastTo_1b_ab_apply, shapeCast_self, shapeCast_self]
  refine congrArg (· + x2 (ix2 (0 : Fin 1) q)) ?_
  exact Cert.LibMatmulNN.matmul_zero_apply (M := 128) (N := 128) (K := 16384)
    Facts₀.dot_S128x16384_S16384x128_S128x128_1_0_0_1_n_n_wf none (truncf .bf16 x0 Facts₀.bitsLt_bf16_f32) x1 p q

/-- What the first launch's body stores, at an entry. -/
theorem pay0_apply (x0 : FVec Ideal S128x16384 .f32) (x1 : FVec Ideal S16384x128 .bf16) (x2 : FVec Ideal S1x128 .f32)
    (p q : Fin 128) :
    k0_pay1 (F := Ideal) x0 x1 x2 (ix2 p q)
      = act ((∑ e : Fin 16384, x0 (ix2 p e) * x1 (ix2 e q)) + x2 (ix2 (0 : Fin 1) q)) := by
  unfold k0_pay1
  exact (act_direct' _).trans (congrArg act (preact_apply x0 x1 x2 p q))

/-- What the second launch's body stores, at an entry: the same function. -/
theorem pay1_apply (x0 : FVec Ideal S128x16384 .f32) (x1 : FVec Ideal S16384x128 .bf16) (x2 : FVec Ideal S1x128 .f32)
    (p q : Fin 128) :
    k1_pay1 (F := Ideal) x0 x1 x2 (ix2 p q)
      = act ((∑ e : Fin 16384, x0 (ix2 p e) * x1 (ix2 e q)) + x2 (ix2 (0 : Fin 1) q)) := by
  unfold k1_pay1
  exact (act_direct' _).trans (congrArg act (preact_apply x0 x1 x2 p q))

end Cert.KernelIdeal.Hand

end
-- ==== Proof.KIOut.lean ====
/-
  The kernel program's result as one function of its six arguments: two graph-convolution layers on the activated,
  concatenated features, then the closing steps.
-/
import proofs.«152001_j83820581749460_2_alg».proof.Proof.KIPieces
import proofs.«152001_j83820581749460_2_alg».proof.Proof.GcnPoint

noncomputable section

namespace Cert.KernelIdeal.Hand

open Cert.KernelIdeal Cert.KernelIdeal.Gen
open Idealize.ShloMosaic

/-- One layer on the concatenated features. -/
abbrev layerK (adj : FVec Ideal S16384x16384 .f32) (x : FVec Ideal S16384x128 .f32) (w : FVec Ideal S64x64 .f32)
    (b : FVec Ideal S64 .f32) : FVec Ideal S16384x128 .f32 :=
  gcnArr adj (xwK x w) (btileK b)

/-- The kernel program's result. -/
def kerOut (z : FVec Ideal S16384x192 .f32) (adj : FVec Ideal S16384x16384 .f32) (ws : FVec Ideal S2x64x64 .f32)
    (bs : FVec Ideal S2x64 .f32) (wl : FVec Ideal S192x64 .f32) (bl : FVec Ideal S64 .f32) : FVec Ideal S16384x64 .f32 :=
  closing (layerK adj (layerK adj (x0K z) (w0K ws) (b0K bs)) (w1K ws) (b1K bs)) (zaK z) wl bl

end Cert.KernelIdeal.Hand

end
-- ==== Proof.KIRegion.lean ====
/-
  What one launch of the graph-convolution kernel leaves in its result array, as one function of the arrays it
  finds: entry (r, q) is act (∑ₑ adj(r,e) · x(e,q) + b(0,q)). Grid point t writes rows 128·t … 128·t + 127, the 128
  grid points tile the 16384 rows, so the blocks written back assemble to that function.
-/
import proofs.«152001_j83820581749460_2_alg».proof.Proof.KIDefs
import proofs.«152001_j83820581749460_2_alg».proof.Proof.GcnPoint

set_option maxRecDepth 16384

noncomputable section

namespace Cert.KernelIdeal.Hand

open Cert.KernelIdeal Cert.KernelIdeal.Gen Cert.Act
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

variable (V : (c : Dev nD) → (b : Ref sig .tc) → Buf (Elt Ideal) ((c : Thread nD τ).loc b))

/-! ## Launch 0 -/

/-- The printed block-index maps over the grid: the band and the result move with the grid point along the rows,
    the right factor and the bias row stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, e) of the band at grid point t is entry (128·t + p, e) of the adjacency matrix. -/
theorem emb0_0 (t : Fin cfg0.N) (p : Fin 128) (e : Fin 16384) (r : Fin 16384) (hr : r.val = t.val * 128 + p.val) :
    ((cfg0.win 0).blk t).view.emb (ix2 p e) = ix2 r e := by
  obtain ⟨e0, e1, -⟩ := idx_facts0 t
  funext a; apply Fin.ext
  match a with
  | ⟨0, _⟩ => show win0_0.index t (0 : Fin 2) * 128 + 1 * p.val = r.val; omega
  | ⟨1, _⟩ => show win0_0.index t (1 : Fin 2) * 16384 + 1 * e.val = e.val; omega

/-- The right factor's block is the whole array. -/
theorem emb0_1 (t : Fin cfg0.N) (e : Fin 16384) (q : Fin 128) :
    ((cfg0.win 1).blk t).view.emb (ix2 e q) = ix2 e q := by
  obtain ⟨-, -, e2, e3, -⟩ := idx_facts0 t
  funext a; apply Fin.ext
  match a with
  | ⟨0, _⟩ => show win0_1.index t (0 : Fin 2) * 16384 + 1 * e.val = e.val; omega
  | ⟨1, _⟩ => show win0_1.index t (1 : Fin 2) * 128 + 1 * q.val = q.val; omega

/-- The bias row's block is the whole row. -/
theorem emb0_2 (t : Fin cfg0.N) (z : Fin 1) (q : Fin 128) :
    ((cfg0.win 2).blk t).view.emb (ix2 z q) = ix2 z q := by
  obtain ⟨-, -, -, -, e4, e5, -⟩ := idx_facts0 t
  funext a; apply Fin.ext
  match a with
  | ⟨0, _⟩ => show win0_2.index t (0 : Fin 2) * 1 + 1 * z.val = z.val; omega
  | ⟨1, _⟩ => show win0_2.index t (1 : Fin 2) * 128 + 1 * q.val = q.val; omega

/-- Entry (p, q) of the result block at grid point t is entry (128·t + p, q) of the result. -/
theorem emb0_3 (t : Fin cfg0.N) (p : Fin 128) (q : Fin 128) (r : Fin 16384) (hr : r.val = t.val * 128 + p.val) :
    ((cfg0.win 3).blk t).view.emb (ix2 p q) = ix2 r q := by
  obtain ⟨-, -, -, -, -, -, e6, e7⟩ := idx_facts0 t
  funext a; apply Fin.ext
  match a with
  | ⟨0, _⟩ => show win0_3.index t (0 : Fin 2) * 128 + 1 * p.val = r.val; omega
  | ⟨1, _⟩ => show win0_3.index t (1 : Fin 2) * 128 + 1 * q.val = q.val; omega

/-- The band's block read at an entry. -/
theorem iblk0_0_apply (c : Dev nD) (t : Fin cfg0.N) (p : Fin 128) (e : Fin 16384) (r : Fin 16384)
    (hr : r.val = t.val * 128 + p.val) : iblk0 V c 0 t (ix2 p e) = V c main_arg1 (ix2 r e) := by
  unfold iblk0
  show V c main_arg1 (((cfg0.win 0).blk t).view.emb (ix2 p e)) = _
  rw [emb0_0 t p e r hr]

/-- The right factor's block read at an entry. -/
theorem iblk0_1_apply (c : Dev nD) (t : Fin cfg0.N) (e : Fin 16384) (q : Fin 128) :
    iblk0 V c 1 t (ix2 e q) = V c main_v25 (ix2 e q) := by
  unfold iblk0
  show V c main_v25 (((cfg0.win 1).blk t).view.emb (ix2 e q)) = _
  rw [emb0_1 t e q]

/-- The bias row's block read at an entry. -/
theorem iblk0_2_apply (c : Dev nD) (t : Fin cfg0.N) (q : Fin 128) :
    iblk0 V c 2 t (ix2 (0 : Fin 1) q) = V c main_v23 (ix2 (0 : Fin 1) q) := by
  unfold iblk0
  show V c main_v23 (((cfg0.win 2).blk t).view.emb (ix2 (0 : Fin 1) q)) = _
  rw [emb0_2 t 0 q]

/-- WHAT GRID POINT t WRITES BACK is block t of the whole-array function `gcnArr` of the arrays as the launch finds them. -/
theorem flushed0_eq (c : Dev nD) (t : Fin cfg0.N) :
    (dat0 V c).flushed 3 t
      = ((cfg0.win 3).blk t).view.read (Elt Ideal) (gcnArr (V c main_arg1) (V c main_v25) (V c main_v23)) := by
  show (cfg0.win 3).cut (grid0.coords t) ((dat0 V c).after 3 t) = _
  rw [after0_3]
  unfold out0_3
  rw [View.canon_unit_zero hz]
  simp only [View.ld_unit_zero (S := S128x16384) hz, View.ld_unit_zero (S := S16384x128) hz, View.ld_unit_zero (S := S1x128) hz]
  funext j
  obtain ⟨p, q, rfl⟩ : ∃ (p : Fin 128) (q : Fin 128), j = ix2 p q := ⟨j 0, j 1, eq_ix2 j⟩
  have hN : t.val < 128 := lt_of_lt_of_eq t.isLt N_0
  have hr : t.val * 128 + p.val < 16384 := by have := p.isLt; omega
  refine (pay0_apply _ _ _ p q).trans ?_
  have h3 : ∀ G : S16384x128.Idx → EReal,
      ((cfg0.win 3).blk t).view.read (Elt Ideal) G (ix2 p q) = G (ix2 ⟨t.val * 128 + p.val, hr⟩ q) := by
    intro G
    show G (((cfg0.win 3).blk t).view.emb (ix2 p q)) = _
    rw [emb0_3 t p q ⟨t.val * 128 + p.val, hr⟩ rfl]
  rw [h3, gcnArr_apply]
  unfold gcnAt
  simp only [iblk0_0_apply V c t p _ ⟨t.val * 128 + p.val, hr⟩ rfl, iblk0_1_apply V c t _ q, iblk0_2_apply V c t q]

/-- An index of the result is in grid point t's block iff its row is in rows 128·t … 128·t + 127. -/
theorem mem_blk0 (t : Fin cfg0.N) (i : S16384x128.Idx) :
    i ∈ ((cfg0.win 3).blk t).view.set ↔ ∀ a : Fin 2, win0_3.index t a * S128x128.size a ≤ (i a).val ∧ (i a).val < win0_3.index t a * S128x128.size a + S128x128.size a := by
  show i ∈ ((View.whole main_v26).slice (win0_3.rect t)).set ↔ _
  rw [View.set_slice_whole, Rect.mem_set_unit]
  exact Iff.rfl

/-- Every index of the result is in some grid point's block: row r belongs to grid point r / 128. -/
theorem cover0 (i : S16384x128.Idx) :
    ∃ t : Fin cfg0.N, (cfg0.win 3).flush t = true ∧ i ∈ ((cfg0.win 3).blk t).view.set := by
  have hi0 : (i 0).val < 16384 := (i 0).isLt
  have hi1 : (i 1).val < 128 := (i 1).isLt
  refine ⟨⟨(i 0).val / 128, by have hN : cfg0.N = 128 := N_0; omega⟩, flush0_3 _, ?_⟩
  rw [mem_blk0]
  obtain ⟨-, -, -, -, -, -, e6, e7⟩ := idx_facts0 ⟨(i 0).val / 128, by have hN : cfg0.N = 128 := N_0; omega⟩
  intro a
  match a with
  | ⟨0, _⟩ =>
    show win0_3.index _ (0 : Fin 2) * 128 ≤ (i 0).val ∧ (i 0).val < win0_3.index _ (0 : Fin 2) * 128 + 128
    rw [e6]; show (i 0).val / 128 * 128 ≤ (i 0).val ∧ (i 0).val < (i 0).val / 128 * 128 + 128; omega
  | ⟨1, _⟩ =>
    show win0_3.index _ (1 : Fin 2) * 128 ≤ (i 1).val ∧ (i 1).val < win0_3.index _ (1 : Fin 2) * 128 + 128
    rw [e7]; omega

/-- THE RESULT ARRAY after the launch: `gcnArr` of the adjacency matrix, the right factor and the bias row as the
    launch finds them. -/
theorem final0 (c : Dev nD) :
    (dat0 V c).arrAt 3 cfg0.N = gcnArr (V c main_arg1) (V c main_v25) (V c main_v23) :=
  (dat0 V c).arrAt_eq_of_cover 3 _ (fun t _ => flushed0_eq V c t) cover0

/-! ## Launch 1 -/

/-- The printed block-index maps over the grid: the band and the result move with the grid point along the rows,
    the right factor and the bias row stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, e) of the band at grid point t is entry (128·t + p, e) of the adjacency matrix. -/
theorem emb1_0 (t : Fin cfg1.N) (p : Fin 128) (e : Fin 16384) (r : Fin 16384) (hr : r.val = t.val * 128 + p.val) :
    ((cfg1.win 0).blk t).view.emb (ix2 p e) = ix2 r e := by
  obtain ⟨e0, e1, -⟩ := idx_facts1 t
  funext a; apply Fin.ext
  match a with
  | ⟨0, _⟩ => show win1_0.index t (0 : Fin 2) * 128 + 1 * p.val = r.val; omega
  | ⟨1, _⟩ => show win1_0.index t (1 : Fin 2) * 16384 + 1 * e.val = e.val; omega

/-- The right factor's block is the whole array. -/
theorem emb1_1 (t : Fin cfg1.N) (e : Fin 16384) (q : Fin 128) :
    ((cfg1.win 1).blk t).view.emb (ix2 e q) = ix2 e q := by
  obtain ⟨-, -, e2, e3, -⟩ := idx_facts1 t
  funext a; apply Fin.ext
  match a with
  | ⟨0, _⟩ => show win1_1.index t (0 : Fin 2) * 16384 + 1 * e.val = e.val; omega
  | ⟨1, _⟩ => show win1_1.index t (1 : Fin 2) * 128 + 1 * q.val = q.val; omega

/-- The bias row's block is the whole row. -/
theorem emb1_2 (t : Fin cfg1.N) (z : Fin 1) (q : Fin 128) :
    ((cfg1.win 2).blk t).view.emb (ix2 z q) = ix2 z q := by
  obtain ⟨-, -, -, -, e4, e5, -⟩ := idx_facts1 t
  funext a; apply Fin.ext
  match a with
  | ⟨0, _⟩ => show win1_2.index t (0 : Fin 2) * 1 + 1 * z.val = z.val; omega
  | ⟨1, _⟩ => show win1_2.index t (1 : Fin 2) * 128 + 1 * q.val = q.val; omega

/-- Entry (p, q) of the result block at grid point t is entry (128·t + p, q) of the result. -/
theorem emb1_3 (t : Fin cfg1.N) (p : Fin 128) (q : Fin 128) (r : Fin 16384) (hr : r.val = t.val * 128 + p.val) :
    ((cfg1.win 3).blk t).view.emb (ix2 p q) = ix2 r q := by
  obtain ⟨-, -, -, -, -, -, e6, e7⟩ := idx_facts1 t
  funext a; apply Fin.ext
  match a with
  | ⟨0, _⟩ => show win1_3.index t (0 : Fin 2) * 128 + 1 * p.val = r.val; omega
  | ⟨1, _⟩ => show win1_3.index t (1 : Fin 2) * 128 + 1 * q.val = q.val; omega

/-- The band's block read at an entry. -/
theorem iblk1_0_apply (c : Dev nD) (t : Fin cfg1.N) (p : Fin 128) (e : Fin 16384) (r : Fin 16384)
    (hr : r.val = t.val * 128 + p.val) : iblk1 V c 0 t (ix2 p e) = V c main_arg1 (ix2 r e) := by
  unfold iblk1
  show V c main_arg1 (((cfg1.win 0).blk t).view.emb (ix2 p e)) = _
  rw [emb1_0 t p e r hr]

/-- The right factor's block read at an entry. -/
theorem iblk1_1_apply (c : Dev nD) (t : Fin cfg1.N) (e : Fin 16384) (q : Fin 128) :
    iblk1 V c 1 t (ix2 e q) = V c main_v36 (ix2 e q) := by
  unfold iblk1
  show V c main_v36 (((cfg1.win 1).blk t).view.emb (ix2 e q)) = _
  rw [emb1_1 t e q]

/-- The bias row's block read at an entry. -/
theorem iblk1_2_apply (c : Dev nD) (t : Fin cfg1.N) (q : Fin 128) :
    iblk1 V c 2 t (ix2 (0 : Fin 1) q) = V c main_v34 (ix2 (0 : Fin 1) q) := by
  unfold iblk1
  show V c main_v34 (((cfg1.win 2).blk t).view.emb (ix2 (0 : Fin 1) q)) = _
  rw [emb1_2 t 0 q]

/-- WHAT GRID POINT t WRITES BACK is block t of the whole-array function `gcnArr` of the arrays as the launch finds them. -/
theorem flushed1_eq (c : Dev nD) (t : Fin cfg1.N) :
    (dat1 V c).flushed 3 t
      = ((cfg1.win 3).blk t).view.read (Elt Ideal) (gcnArr (V c main_arg1) (V c main_v36) (V c main_v34)) := by
  show (cfg1.win 3).cut (grid1.coords t) ((dat1 V c).after 3 t) = _
  rw [after1_3]
  unfold out1_3
  rw [View.canon_unit_zero hz]
  simp only [View.ld_unit_zero (S := S128x16384) hz, View.ld_unit_zero (S := S16384x128) hz, View.ld_unit_zero (S := S1x128) hz]
  funext j
  obtain ⟨p, q, rfl⟩ : ∃ (p : Fin 128) (q : Fin 128), j = ix2 p q := ⟨j 0, j 1, eq_ix2 j⟩
  have hN : t.val < 128 := lt_of_lt_of_eq t.isLt N_1
  have hr : t.val * 128 + p.val < 16384 := by have := p.isLt; omega
  refine (pay1_apply _ _ _ p q).trans ?_
  have h3 : ∀ G : S16384x128.Idx → EReal,
      ((cfg1.win 3).blk t).view.read (Elt Ideal) G (ix2 p q) = G (ix2 ⟨t.val * 128 + p.val, hr⟩ q) := by
    intro G
    show G (((cfg1.win 3).blk t).view.emb (ix2 p q)) = _
    rw [emb1_3 t p q ⟨t.val * 128 + p.val, hr⟩ rfl]
  rw [h3, gcnArr_apply]
  unfold gcnAt
  simp only [iblk1_0_apply V c t p _ ⟨t.val * 128 + p.val, hr⟩ rfl, iblk1_1_apply V c t _ q, iblk1_2_apply V c t q]

/-- An index of the result is in grid point t's block iff its row is in rows 128·t … 128·t + 127. -/
theorem mem_blk1 (t : Fin cfg1.N) (i : S16384x128.Idx) :
    i ∈ ((cfg1.win 3).blk t).view.set ↔ ∀ a : Fin 2, win1_3.index t a * S128x128.size a ≤ (i a).val ∧ (i a).val < win1_3.index t a * S128x128.size a + S128x128.size a := by
  show i ∈ ((View.whole main_v37).slice (win1_3.rect t)).set ↔ _
  rw [View.set_slice_whole, Rect.mem_set_unit]
  exact Iff.rfl

/-- Every index of the result is in some grid point's block: row r belongs to grid point r / 128. -/
theorem cover1 (i : S16384x128.Idx) :
    ∃ t : Fin cfg1.N, (cfg1.win 3).flush t = true ∧ i ∈ ((cfg1.win 3).blk t).view.set := by
  have hi0 : (i 0).val < 16384 := (i 0).isLt
  have hi1 : (i 1).val < 128 := (i 1).isLt
  refine ⟨⟨(i 0).val / 128, by have hN : cfg1.N = 128 := N_1; omega⟩, flush1_3 _, ?_⟩
  rw [mem_blk1]
  obtain ⟨-, -, -, -, -, -, e6, e7⟩ := idx_facts1 ⟨(i 0).val / 128, by have hN : cfg1.N = 128 := N_1; omega⟩
  intro a
  match a with
  | ⟨0, _⟩ =>
    show win1_3.index _ (0 : Fin 2) * 128 ≤ (i 0).val ∧ (i 0).val < win1_3.index _ (0 : Fin 2) * 128 + 128
    rw [e6]; show (i 0).val / 128 * 128 ≤ (i 0).val ∧ (i 0).val < (i 0).val / 128 * 128 + 128; omega
  | ⟨1, _⟩ =>
    show win1_3.index _ (1 : Fin 2) * 128 ≤ (i 1).val ∧ (i 1).val < win1_3.index _ (1 : Fin 2) * 128 + 128
    rw [e7]; omega

/-- THE RESULT ARRAY after the launch: `gcnArr` of the adjacency matrix, the right factor and the bias row as the
    launch finds them. -/
theorem final1 (c : Dev nD) :
    (dat1 V c).arrAt 3 cfg1.N = gcnArr (V c main_arg1) (V c main_v36) (V c main_v34) :=
  (dat1 V c).arrAt_eq_of_cover 3 _ (fun t _ => flushed1_eq V c t) cover1

end Cert.KernelIdeal.Hand

end
-- ==== Proof.KIValue.lean ====
/-
  The kernel program's result as one function of its six arguments. Walking the program's boundaries: the host
  steps before the first launch form the activated, concatenated features X₀ = [act zs | act zu], the first layer's
  weight and bias, the product X₀ · blockdiag(W₀, W₀) and the doubled bias row; the first launch leaves
  gcnArr adj (X₀ · blockdiag W₀) [b₀ b₀]; the same once more with the second layer's weight and bias; the closing
  steps put the two halves of that beside the third column block of z, multiply by the output weight and add the
  output bias.
-/
import proofs.«152001_j83820581749460_2_alg».proof.Proof.KIFrame
import proofs.«152001_j83820581749460_2_alg».proof.Proof.KIOut
import proofs.«152001_j83820581749460_2_alg».proof.Proof.KIRegion

noncomputable section

namespace Cert.KernelIdeal.Hand

open Cert.KernelIdeal Cert.KernelIdeal.Gen
open Idealize.ShloMosaic Idealize.ShloMosaic.TcCoe Idealize.SL.Sem Idealize.ShloMosaic.StableHlo

/-! ## Walking the boundaries -/

variable (m : (ℓ : Loc nD τ sig) → Buf (Elt Ideal) ℓ) (c : Dev nD)

theorem W4_v8 : W4 m c main_v8 = eluK (F := Ideal) (zsK (m ((c : Thread nD τ).loc main_arg0))) := by
  have e1 : W4 m c main_v8 = W3 m c main_v8 := W4_of m c main_v8 (by decide)
  have e2 : W3 m c main_v8 = W2 m c main_v8 := W3_of m c main_v8 (by decide)
  have e3 : W2 m c main_v8 = select (W1 m c main_v4) (W1 m c main_v0) (W1 m c main_v7) := s01_v8 (W1 m c)
  have e4 : W1 m c main_v4 = cmpf .ogt (zsK (F := Ideal) (m ((c : Thread nD τ).loc main_arg0))) (zero64 (F := Ideal)) := s0_v4 (W0 m c)
  have e5 : W1 m c main_v0 = zsK (F := Ideal) (m ((c : Thread nD τ).loc main_arg0)) := s0_v0 (W0 m c)
  have e6 : W1 m c main_v7 = subf (Host.exp (zsK (F := Ideal) (m ((c : Thread nD τ).loc main_arg0)))) (one64 (F := Ideal)) := s0_v7 (W0 m c)
  rw [e1, e2, e3, e4, e5, e6]

theorem W2_v1 : W2 m c main_v1 = zuK (F := Ideal) (m ((c : Thread nD τ).loc main_arg0)) := by
  have e1 : W2 m c main_v1 = W1 m c main_v1 := W2_of m c main_v1 (by decide)
  have e2 : W1 m c main_v1 = zuK (F := Ideal) (m ((c : Thread nD τ).loc main_arg0)) := s0_v1 (W0 m c)
  rw [e1, e2]

theorem W4_v14 : W4 m c main_v14 = eluK (F := Ideal) (zuK (m ((c : Thread nD τ).loc main_arg0))) := by
  have e1 : W4 m c main_v14 = select (W3 m c main_v10) (W3 m c main_v1) (W3 m c main_v13) := s03_v14 (W3 m c)
  have e2 : W3 m c main_v1 = W2 m c main_v1 := W3_of m c main_v1 (by decide)
  have e3 : W3 m c main_v10 = cmpf .ogt (W2 m c main_v1) (zero64 (F := Ideal)) := s02_v10 (W2 m c)
  have e4 : W3 m c main_v13 = subf (Host.exp (W2 m c main_v1)) (one64 (F := Ideal)) := s02_v13 (W2 m c)
  rw [e1, e2, e3, e4, W2_v1]

theorem W4_arg2 : W4 m c main_arg2 = (m ((c : Thread nD τ).loc main_arg2)) :=
  (W4_of m c main_arg2 (by decide)).trans <| (W3_of m c main_arg2 (by decide)).trans <|
    (W2_of m c main_arg2 (by decide)).trans <| (W1_of m c main_arg2 (by decide)).trans rfl
theorem W4_arg3 : W4 m c main_arg3 = (m ((c : Thread nD τ).loc main_arg3)) :=
  (W4_of m c main_arg3 (by decide)).trans <| (W3_of m c main_arg3 (by decide)).trans <|
    (W2_of m c main_arg3 (by decide)).trans <| (W1_of m c main_arg3 (by decide)).trans rfl
theorem W7_arg1 : W7 m c main_arg1 = (m ((c : Thread nD τ).loc main_arg1)) :=
  (W7_of m c main_arg1 (by decide)).trans <| (W6_of m c main_arg1 (by decide)).trans <| (W5_of m c main_arg1 (by decide)).trans <|
    (W4_of m c main_arg1 (by decide)).trans <| (W3_of m c main_arg1 (by decide)).trans <|
    (W2_of m c main_arg1 (by decide)).trans <| (W1_of m c main_arg1 (by decide)).trans rfl
theorem W7_arg2 : W7 m c main_arg2 = (m ((c : Thread nD τ).loc main_arg2)) :=
  (W7_of m c main_arg2 (by decide)).trans <| (W6_of m c main_arg2 (by decide)).trans <| (W5_of m c main_arg2 (by decide)).trans <|
    W4_arg2 m c
theorem W7_arg3 : W7 m c main_arg3 = (m ((c : Thread nD τ).loc main_arg3)) :=
  (W7_of m c main_arg3 (by decide)).trans <| (W6_of m c main_arg3 (by decide)).trans <| (W5_of m c main_arg3 (by decide)).trans <|
    W4_arg3 m c
theorem W7_v2 : W7 m c main_v2 = zaK (F := Ideal) (m ((c : Thread nD τ).loc main_arg0)) :=
  (W7_of m c main_v2 (by decide)).trans <| (W6_of m c main_v2 (by decide)).trans <| (W5_of m c main_v2 (by decide)).trans <|
    (W4_of m c main_v2 (by decide)).trans <| (W3_of m c main_v2 (by decide)).trans <| (W2_of m c main_v2 (by decide)).trans <|
    (s0_v2 (W0 m c))

/-- The right factor the first launch finds. -/
theorem W7_v25 : W7 m c main_v25 = xwK (F := Ideal) (x0K (m ((c : Thread nD τ).loc main_arg0))) (w0K (m ((c : Thread nD τ).loc main_arg2))) := by
  have e1 := s06_v25 (W6 m c)
  have e0 : W7 m c main_v25 = after hostOps0_6 (W6 m c) main_v25 := rfl
  have e2 : W6 m c main_v15 = W5 m c main_v15 := W6_of m c main_v15 (by decide)
  have e3 : W5 m c main_v15 = concatenate S16384x128 1 [⟨S16384x64, W4 m c main_v8⟩, ⟨S16384x64, W4 m c main_v14⟩]
      Facts₀.concatenates_S16384x64_S16384x64_S16384x128_d1 := s04_v15 (W4 m c)
  have e4 := s05_v21 (W5 m c)
  have e4' : W6 m c main_v21 = after hostOps0_5 (W5 m c) main_v21 := rfl
  have e5 : W5 m c main_v17 = w0K (F := Ideal) (W4 m c main_arg2) := s04_v17 (W4 m c)
  have e6 : W5 m c main_v20 = zeroW (F := Ideal) := s04_v20 (W4 m c)
  rw [e0, e1, e2, e3, e4', e4, e5, e6, W4_v8, W4_v14, W4_arg2]

/-- The bias row the first launch finds. -/
theorem W7_v23 : W7 m c main_v23 = btileK (F := Ideal) (b0K (m ((c : Thread nD τ).loc main_arg3))) := by
  have e1 : W7 m c main_v23 = btileK (F := Ideal) (W6 m c main_v19) := s06_v23 (W6 m c)
  have e2 : W6 m c main_v19 = W5 m c main_v19 := W6_of m c main_v19 (by decide)
  have e3 : W5 m c main_v19 = b0K (F := Ideal) (W4 m c main_arg3) := s04_v19 (W4 m c)
  rw [e1, e2, e3, W4_arg3]

/-- What the first launch leaves. -/
theorem W8_v26 : W8 m c main_v26 = layerK (m ((c : Thread nD τ).loc main_arg1)) (x0K (m ((c : Thread nD τ).loc main_arg0))) (w0K (m ((c : Thread nD τ).loc main_arg2))) (b0K (m ((c : Thread nD τ).loc main_arg3))) := by
  have e1 : W8 m c main_v26 = (dat0 (V7 m) c).arrAt 3 cfg0.N := W8_arr m c 3
  have e2 : (dat0 (V7 m) c).arrAt 3 cfg0.N = gcnArr (W7 m c main_arg1) (W7 m c main_v25) (W7 m c main_v23) := final0 (V7 m) c
  rw [e1, e2, W7_arg1, W7_v25, W7_v23]

theorem W8_arg1 : W8 m c main_arg1 = (m ((c : Thread nD τ).loc main_arg1)) :=
  ((W8_arr m c 0).trans (((dat0 (V7 m) c).arrAt_in 0 rfl _).trans (A_eq0 (V7 m) c 0))).trans (W7_arg1 m c)
theorem W8_arg2 : W8 m c main_arg2 = (m ((c : Thread nD τ).loc main_arg2)) :=
  (W8_of_ne m c main_arg2 (by decide)).trans (W7_arg2 m c)
theorem W8_arg3 : W8 m c main_arg3 = (m ((c : Thread nD τ).loc main_arg3)) :=
  (W8_of_ne m c main_arg3 (by decide)).trans (W7_arg3 m c)
theorem W11_arg1 : W11 m c main_arg1 = (m ((c : Thread nD τ).loc main_arg1)) :=
  (W11_of m c main_arg1 (by decide)).trans <| (W10_of m c main_arg1 (by decide)).trans <| (W9_of m c main_arg1 (by decide)).trans <|
    W8_arg1 m c
theorem W11_v2 : W11 m c main_v2 = zaK (F := Ideal) (m ((c : Thread nD τ).loc main_arg0)) :=
  (W11_of m c main_v2 (by decide)).trans <| (W10_of m c main_v2 (by decide)).trans <| (W9_of m c main_v2 (by decide)).trans <|
    (W8_of_ne m c main_v2 (by decide)).trans (W7_v2 m c)

/-- The right factor the second launch finds. -/
theorem W11_v36 : W11 m c main_v36
    = xwK (F := Ideal) (layerK (m ((c : Thread nD τ).loc main_arg1)) (x0K (m ((c : Thread nD τ).loc main_arg0))) (w0K (m ((c : Thread nD τ).loc main_arg2))) (b0K (m ((c : Thread nD τ).loc main_arg3)))) (w1K (m ((c : Thread nD τ).loc main_arg2))) := by
  have e1 := s12_v36 (W10 m c)
  have e0 : W11 m c main_v36 = after hostOps1_2 (W10 m c) main_v36 := rfl
  have e2 : W10 m c main_v26 = W9 m c main_v26 := W10_of m c main_v26 (by decide)
  have e3 : W9 m c main_v26 = W8 m c main_v26 := W9_of m c main_v26 (by decide)
  have e4 := s11_v32 (W9 m c)
  have e4' : W10 m c main_v32 = after hostOps1_1 (W9 m c) main_v32 := rfl
  have e5 : W9 m c main_v28 = w1K (F := Ideal) (W8 m c main_arg2) := s1_v28 (W8 m c)
  have e6 : W9 m c main_v31 = zeroW (F := Ideal) := s1_v31 (W8 m c)
  rw [e0, e1, e2, e3, e4', e4, e5, e6, W8_v26, W8_arg2]

/-- The bias row the second launch finds. -/
theorem W11_v34 : W11 m c main_v34 = btileK (F := Ideal) (b1K (m ((c : Thread nD τ).loc main_arg3))) := by
  have e1 : W11 m c main_v34 = btileK (F := Ideal) (W10 m c main_v30) := s12_v34 (W10 m c)
  have e2 : W10 m c main_v30 = W9 m c main_v30 := W10_of m c main_v30 (by decide)
  have e3 : W9 m c main_v30 = b1K (F := Ideal) (W8 m c main_arg3) := s1_v30 (W8 m c)
  rw [e1, e2, e3, W8_arg3]

/-- THE KERNEL PROGRAM'S RESULT at its return, as a function of the launch contents of its arguments. -/
theorem W13_v44 : W13 m c main_v44 = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e1 := s2_v44 (W12 m c)
  have e0 : W13 m c main_v44 = after hostOps2 (W12 m c) main_v44 := rfl
  have e2 : W12 m c main_v37 = (dat1 (V11 m) c).arrAt 3 cfg1.N := W12_arr m c 3
  have e3 : (dat1 (V11 m) c).arrAt 3 cfg1.N = gcnArr (W11 m c main_arg1) (W11 m c main_v36) (W11 m c main_v34) := final1 (V11 m) c
  have e4 : W12 m c main_v2 = W11 m c main_v2 := W12_of_ne m c main_v2 (by decide)
  have e5 : W12 m c main_arg4 = (m ((c : Thread nD τ).loc main_arg4)) := (W13_of m c main_arg4 (by decide)).symm.trans (W13_main_arg4 m c)
  have e6 : W12 m c main_arg5 = (m ((c : Thread nD τ).loc main_arg5)) := (W13_of m c main_arg5 (by decide)).symm.trans (W13_main_arg5 m c)
  rw [e0, e1, e2, e3, e4, e5, e6, W11_arg1, W11_v36, W11_v34, W11_v2]
  rfl

end Cert.KernelIdeal.Hand

end
-- ==== Proof.LibDotNN.lean ====
/-
  A host matrix product read at an index at the exact extended reals: a general lemma.

  With dimension numbers that contract axis 1 of an `[M, K]` left factor with axis 0 of a `[K, N]` right factor (no
  batch axes; the result `[M, N]`), entry `(p, q)` of the host's product is the sum over `e` of
  `lhs (p, e) * rhs (e, q)`, whatever the precision and the schedule key.
-/
import proofs.«152001_j83820581749460_2_alg».proof.Proof.LibMatmulNN

noncomputable section

namespace Cert.LibDotNN

open Idealize.ShloMosaic Idealize.ShloMosaic.ValueIdx Cert.LibMatmulNN

variable {M N K : ℕ}
variable (wf : DotDims.WF (⟨2, ![M, K]⟩ : Shape) (⟨2, ![K, N]⟩ : Shape) (⟨2, ![M, N]⟩ : Shape) [1] [0] [0] [1] [] [])

/-- Entry `(p, q)` of the host's product: row `p` of `lhs` against column `q` of `rhs`. -/
theorem dotGeneral_apply {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral (dims wf) prec sched lhs rhs (ix2 p q) = ∑ e : Fin K, lhs (ix2 p e) * rhs (ix2 e q) := by
  rw [Ideal.dotGeneral_apply, ← Equiv.sum_comp (contrEquiv1 (dims wf) K rfl rfl).symm]
  refine Finset.sum_congr rfl fun e _ => ?_
  rw [lhsIdx_eq wf p q e, rhsIdx_eq wf p q e]

end Cert.LibDotNN

end
-- ==== Proof.LayerAlg.lean ====
/-
  Index algebra of one layer's host-side pieces at the exact extended reals: the two activated branches side by
  side read at a column of either half; the block-diagonal weight [[w, 0], [0, w]] read at an entry of each of its
  four blocks; row e of [A | B] against column q of the block-diagonal weight, which is row e of A (or of B)
  against the matching column of w, the other half of the sum having the factor 0 in every term; and the doubled
  bias row read at a column of either half.
-/
import proofs.«152001_j83820581749460_2_alg».proof.Proof.KIPieces
import proofs.«152001_j83820581749460_2_alg».proof.Proof.LibDotNN
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx
open scoped BigOperators

/-! ## Two [16384, 64] arrays side by side -/

/-- The concatenation at a column of the first piece, the piece's column named by the caller. -/
theorem cat_left_at (A B : FVec Ideal S16384x64 .f32) (e : Fin 16384) (k : Fin 128) (k' : Fin 64) (h : k'.val = k.val) :
    concatenate S16384x128 1 [⟨S16384x64, A⟩, ⟨S16384x64, B⟩] Facts₀.concatenates_S16384x64_S16384x64_S16384x128_d1 (ix2 e k)
      = A (ix2 e k') :=
  concatenate_pair_apply_left (t := S16384x128) (1 : Fin 2) A B _ (ix2 e k) rfl (ix2 e k')
    (fun b => by match b with | ⟨0, _⟩ => rfl | ⟨1, _⟩ => exact h)

/-- The concatenation at a column of the second piece, the piece's column named by the caller. -/
theorem cat_right_at (A B : FVec Ideal S16384x64 .f32) (e : Fin 16384) (k : Fin 128) (k' : Fin 64) (h : k'.val + 64 = k.val) :
    concatenate S16384x128 1 [⟨S16384x64, A⟩, ⟨S16384x64, B⟩] Facts₀.concatenates_S16384x64_S16384x64_S16384x128_d1 (ix2 e k)
      = B (ix2 e k') :=
  concatenate_pair_apply_right (t := S16384x128) (1 : Fin 2) A B _ (ix2 e k) rfl rfl (ix2 e k')
    (fun b hb => by match b, hb with | ⟨0, _⟩, _ => rfl | ⟨1, _⟩, hb => exact absurd rfl hb) h

theorem cat_left (A B : FVec Ideal S16384x64 .f32) (e : Fin 16384) (k : Fin 128) (hk : k.val < 64) :
    concatenate S16384x128 1 [⟨S16384x64, A⟩, ⟨S16384x64, B⟩] Facts₀.concatenates_S16384x64_S16384x64_S16384x128_d1 (ix2 e k)
      = A (ix2 e ⟨k.val, hk⟩) :=
  cat_left_at A B e k ⟨k.val, hk⟩ rfl

theorem cat_right (A B : FVec Ideal S16384x64 .f32) (e : Fin 16384) (k : Fin 128) (hk : 64 ≤ k.val) :
    concatenate S16384x128 1 [⟨S16384x64, A⟩, ⟨S16384x64, B⟩] Facts₀.concatenates_S16384x64_S16384x64_S16384x128_d1 (ix2 e k)
      = B (ix2 e ⟨k.val - 64, by have := k.isLt; omega⟩) :=
  cat_right_at A B e k ⟨k.val - 64, by have := k.isLt; omega⟩ (by show k.val - 64 + 64 = k.val; omega)

/-! ## The block-diagonal weight -/

/-- The zero block is zero at every entry. -/
theorem zeroW_apply (i : S64x64.Idx) : zeroW (F := Ideal) i = 0 := by
  unfold zeroW
  rw [broadcastInDim_apply _ _ _ i ix0 (fun a => a.elim0), constant_apply, Ideal.ofBits_zero_f32]

/-- Two [64, 64] blocks side by side, at a column of the first, -/
theorem row_left_at (X Y : FVec Ideal S64x64 .f32) (p : Fin 64) (q : Fin 128) (q' : Fin 64) (h : q'.val = q.val) :
    concatenate S64x128 1 [⟨S64x64, X⟩, ⟨S64x64, Y⟩] Facts₀.concatenates_S64x64_S64x64_S64x128_d1 (ix2 p q) = X (ix2 p q') :=
  concatenate_pair_apply_left (t := S64x128) (1 : Fin 2) X Y _ (ix2 p q) rfl (ix2 p q')
    (fun b => by match b with | ⟨0, _⟩ => rfl | ⟨1, _⟩ => exact h)
/-- and at a column of the second. -/
theorem row_right_at (X Y : FVec Ideal S64x64 .f32) (p : Fin 64) (q : Fin 128) (q' : Fin 64) (h : q'.val + 64 = q.val) :
    concatenate S64x128 1 [⟨S64x64, X⟩, ⟨S64x64, Y⟩] Facts₀.concatenates_S64x64_S64x64_S64x128_d1 (ix2 p q) = Y (ix2 p q') :=
  concatenate_pair_apply_right (t := S64x128) (1 : Fin 2) X Y _ (ix2 p q) rfl rfl (ix2 p q')
    (fun b hb => by match b, hb with | ⟨0, _⟩, _ => rfl | ⟨1, _⟩, hb => exact absurd rfl hb) h

/-- Two [64, 128] blocks one above the other, at a row of the upper, -/
theorem col_top_at (T U : FVec Ideal S64x128 .f32) (k q : Fin 128) (k' : Fin 64) (h : k'.val = k.val) :
    concatenate S128x128 0 [⟨S64x128, T⟩, ⟨S64x128, U⟩] Facts₀.concatenates_S64x128_S64x128_S128x128_d0 (ix2 k q) = T (ix2 k' q) :=
  concatenate_pair_apply_left (t := S128x128) (0 : Fin 2) T U _ (ix2 k q) rfl (ix2 k' q)
    (fun b => by match b with | ⟨0, _⟩ => exact h | ⟨1, _⟩ => rfl)
/-- and at a row of the lower. -/
theorem col_bot_at (T U : FVec Ideal S64x128 .f32) (k q : Fin 128) (k' : Fin 64) (h : k'.val + 64 = k.val) :
    concatenate S128x128 0 [⟨S64x128, T⟩, ⟨S64x128, U⟩] Facts₀.concatenates_S64x128_S64x128_S128x128_d0 (ix2 k q) = U (ix2 k' q) :=
  concatenate_pair_apply_right (t := S128x128) (0 : Fin 2) T U _ (ix2 k q) rfl rfl (ix2 k' q)
    (fun b hb => by match b, hb with | ⟨0, _⟩, hb => exact absurd rfl hb | ⟨1, _⟩, _ => rfl) h

/-- The upper left block is `w`. -/
theorem blockDiag_tl_at (w : FVec Ideal S64x64 .f32) (k q : Fin 128) (k' q' : Fin 64) (hk : k'.val = k.val) (hq : q'.val = q.val) :
    blockDiag w (zeroW (F := Ideal)) (ix2 k q) = w (ix2 k' q') := by
  unfold blockDiag
  rw [col_top_at _ _ k q k' hk, row_left_at _ _ k' q q' hq]
/-- The lower right block is `w`. -/
theorem blockDiag_br_at (w : FVec Ideal S64x64 .f32) (k q : Fin 128) (k' q' : Fin 64) (hk : k'.val + 64 = k.val) (hq : q'.val + 64 = q.val) :
    blockDiag w (zeroW (F := Ideal)) (ix2 k q) = w (ix2 k' q') := by
  unfold blockDiag
  rw [col_bot_at _ _ k q k' hk, row_right_at _ _ k' q q' hq]
/-- The upper right block is zero. -/
theorem blockDiag_tr (w : FVec Ideal S64x64 .f32) (k q : Fin 128) (hk : k.val < 64) (hq : 64 ≤ q.val) :
    blockDiag w (zeroW (F := Ideal)) (ix2 k q) = 0 := by
  unfold blockDiag
  rw [col_top_at _ _ k q ⟨k.val, hk⟩ rfl,
    row_right_at _ _ ⟨k.val, hk⟩ q ⟨q.val - 64, by have := q.isLt; omega⟩ (by show q.val - 64 + 64 = q.val; omega), zeroW_apply]
/-- The lower left block is zero. -/
theorem blockDiag_bl (w : FVec Ideal S64x64 .f32) (k q : Fin 128) (hk : 64 ≤ k.val) (hq : q.val < 64) :
    blockDiag w (zeroW (F := Ideal)) (ix2 k q) = 0 := by
  unfold blockDiag
  rw [col_bot_at _ _ k q ⟨k.val - 64, by have := k.isLt; omega⟩ (by show k.val - 64 + 64 = k.val; omega),
    row_left_at _ _ ⟨k.val - 64, by have := k.isLt; omega⟩ q ⟨q.val, hq⟩ rfl, zeroW_apply]

/-- The block-diagonal weight at any entry. -/
theorem blockDiag_apply (w : FVec Ideal S64x64 .f32) (k q : Fin 128) : blockDiag w (zeroW (F := Ideal)) (ix2 k q)
      = if h : k.val < 64 ∧ q.val < 64 then w (ix2 ⟨k.val, h.1⟩ ⟨q.val, h.2⟩)
        else if h' : 64 ≤ k.val ∧ 64 ≤ q.val then
          w (ix2 ⟨k.val - 64, by have := k.isLt; omega⟩ ⟨q.val - 64, by have := q.isLt; omega⟩)
        else 0 := by
  by_cases h : k.val < 64 ∧ q.val < 64
  · rw [dif_pos h]; exact blockDiag_tl_at w k q _ _ rfl rfl
  · rw [dif_neg h]
    by_cases h' : 64 ≤ k.val ∧ 64 ≤ q.val
    · rw [dif_pos h']
      exact blockDiag_br_at w k q _ _ (by show k.val - 64 + 64 = k.val; omega) (by show q.val - 64 + 64 = q.val; omega)
    · rw [dif_neg h']
      by_cases hk : k.val < 64
      · exact blockDiag_tr w k q hk (by omega)
      · exact blockDiag_bl w k q (by omega) (by omega)

/-! ## The features times the block-diagonal weight -/

/-- A sum over 128 indices is the sum over the first 64 plus the sum over the last 64. -/
theorem sum_128 (f : Fin 128 → EReal) :
    ∑ k : Fin 128, f k = (∑ k : Fin 64, f ⟨k.val, by have := k.isLt; omega⟩) + ∑ k : Fin 64, f ⟨64 + k.val, by have := k.isLt; omega⟩ :=
  Fin.sum_univ_add (a := 64) (b := 64) f

/-- The product at an entry: row `e` of the features against column `q` of the block-diagonal weight. -/
theorem xw_apply (x : FVec Ideal S16384x128 .f32) (w : FVec Ideal S64x64 .f32) (e : Fin 16384) (q : Fin 128) :
    xwK x w (ix2 e q) = ∑ k : Fin 128, x (ix2 e k) * blockDiag w (zeroW (F := Ideal)) (ix2 k q) := by
  unfold xwK
  rw [truncf_apply]
  exact Cert.LibDotNN.dotGeneral_apply (M := 16384) (N := 128) (K := 128)
    Facts₀.dot_S16384x128_S128x128_S16384x128_1_0_0_1_n_n_wf (some .fp32) .single x (blockDiag w (zeroW (F := Ideal))) e q

theorem xw_apply_left (A B : FVec Ideal S16384x64 .f32) (w : FVec Ideal S64x64 .f32) (e : Fin 16384) (q : Fin 128) (hq : q.val < 64) :
    xwK (concatenate S16384x128 1 [⟨S16384x64, A⟩, ⟨S16384x64, B⟩] Facts₀.concatenates_S16384x64_S16384x64_S16384x128_d1) w (ix2 e q)
      = ∑ k : Fin 64, A (ix2 e k) * w (ix2 k ⟨q.val, hq⟩) := by
  rw [xw_apply, sum_128]
  have h2 : (∑ k : Fin 64, concatenate S16384x128 1 [⟨S16384x64, A⟩, ⟨S16384x64, B⟩] Facts₀.concatenates_S16384x64_S16384x64_S16384x128_d1
        (ix2 e ⟨64 + k.val, by have := k.isLt; omega⟩)
      * blockDiag w (zeroW (F := Ideal)) (ix2 (⟨64 + k.val, by have := k.isLt; omega⟩ : Fin 128) q)) = 0 :=
    Finset.sum_eq_zero fun k _ => by
      rw [blockDiag_bl w ⟨64 + k.val, by have := k.isLt; omega⟩ q (by show 64 ≤ 64 + k.val; omega) hq, mul_zero]
  rw [h2, add_zero]
  refine Finset.sum_congr rfl fun k _ => ?_
  rw [cat_left_at A B e ⟨k.val, by have := k.isLt; omega⟩ k rfl,
    blockDiag_tl_at w ⟨k.val, by have := k.isLt; omega⟩ q k ⟨q.val, hq⟩ rfl rfl]

theorem xw_apply_right (A B : FVec Ideal S16384x64 .f32) (w : FVec Ideal S64x64 .f32) (e : Fin 16384) (q : Fin 128) (hq : 64 ≤ q.val) :
    xwK (concatenate S16384x128 1 [⟨S16384x64, A⟩, ⟨S16384x64, B⟩] Facts₀.concatenates_S16384x64_S16384x64_S16384x128_d1) w (ix2 e q)
      = ∑ k : Fin 64, B (ix2 e k) * w (ix2 k ⟨q.val - 64, by have := q.isLt; omega⟩) := by
  rw [xw_apply, sum_128]
  have h1 : (∑ k : Fin 64, concatenate S16384x128 1 [⟨S16384x64, A⟩, ⟨S16384x64, B⟩] Facts₀.concatenates_S16384x64_S16384x64_S16384x128_d1
        (ix2 e ⟨k.val, by have := k.isLt; omega⟩)
      * blockDiag w (zeroW (F := Ideal)) (ix2 (⟨k.val, by have := k.isLt; omega⟩ : Fin 128) q)) = 0 :=
    Finset.sum_eq_zero fun k _ => by
      rw [blockDiag_tr w ⟨k.val, by have := k.isLt; omega⟩ q k.isLt hq, mul_zero]
  rw [h1, zero_add]
  refine Finset.sum_congr rfl fun k _ => ?_
  rw [cat_right_at A B e ⟨64 + k.val, by have := k.isLt; omega⟩ k (by show k.val + 64 = 64 + k.val; omega),
    blockDiag_br_at w ⟨64 + k.val, by have := k.isLt; omega⟩ q k ⟨q.val - 64, by have := q.isLt; omega⟩
      (by show k.val + 64 = 64 + k.val; omega) (by show q.val - 64 + 64 = q.val; omega)]

/-! ## The doubled bias row -/

theorem btile_apply_left (b : FVec Ideal S64 .f32) (q : Fin 128) (hq : q.val < 64) :
    btileK b (ix2 (0 : Fin 1) q) = b (ix1 ⟨q.val, hq⟩) := by
  unfold btileK
  rw [shapeCast_a_1a_apply]
  exact concatenate_pair_apply_left (t := S128) (0 : Fin 1) b b _ (ix1 q) rfl (ix1 ⟨q.val, hq⟩)
    (fun a => by match a with | ⟨0, _⟩ => rfl)

theorem btile_apply_right (b : FVec Ideal S64 .f32) (q : Fin 128) (hq : 64 ≤ q.val) :
    btileK b (ix2 (0 : Fin 1) q) = b (ix1 ⟨q.val - 64, by have := q.isLt; omega⟩) := by
  unfold btileK
  rw [shapeCast_a_1a_apply]
  exact concatenate_pair_apply_right (t := S128) (0 : Fin 1) b b _ (ix1 q) rfl rfl (ix1 ⟨q.val - 64, by have := q.isLt; omega⟩)
    (fun a ha => by match a, ha with | ⟨0, _⟩, ha => exact absurd rfl ha) (by show q.val - 64 + 64 = q.val; omega)

end Cert.KernelIdeal.Hand

end
-- ==== Proof.RefDefs.lean ====
import proofs.«152001_j83820581749460_2_alg».proof.Proof.Gen.ReferenceIdeal

/-!
# The reference's value, as functions of whole arrays

The reference splits the 16384×192 input into three 16384×64 column blocks, passes the first two
through an exponential linear unit and two graph-convolution layers (each elu (adj · (y · W) + b),
the weights shared by the two branches), concatenates the two results with the untouched third block
along the columns, and applies a final affine map. The definitions below are that composition, each
written with the same array operations, in the same order, as the program's statements.
-/

noncomputable section

namespace Cert.ReferenceIdeal.Hand

open Cert.ReferenceIdeal Cert.ReferenceIdeal.Gen Idealize.ShloMosaic

variable {F : FTy → Type} [FloatOps F]

/-- The exponential linear unit on a 16384×64 array: x where x > 0, and elsewhere
    1 · expm1 x' with x' the array x zeroed where x > 0. -/
def eluR (x : FVec F S16384x64 .f32) : FVec F S16384x64 .f32 :=
  select (cmpf .ogt x (broadcastInDim S16384x64 ![] bcast_S_S16384x64 (constant S_ .f32 0x00000000#32))) x
    (mulf (broadcastInDim S16384x64 ![] bcast_S_S16384x64 (constant S_ .f32 0x3F800000#32))
      (Host.expm1
        (select (cmpf .ogt x (broadcastInDim S16384x64 ![] bcast_S_S16384x64 (constant S_ .f32 0x00000000#32)))
          (broadcastInDim S16384x64 ![] bcast_S_S16384x64 (constant S_ .f32 0x00000000#32)) x)))

/-- One graph-convolution layer followed by the unit: elu (adj · (y · w) + b), the bias b
    spread over the rows. -/
def layerR (adj : FVec F S16384x16384 .f32) (y : FVec F S16384x64 .f32) (w : FVec F S64x64 .f32)
    (b : FVec F S64 .f32) : FVec F S16384x64 .f32 :=
  eluR (addf
    (Host.dotGeneral dot_S16384x16384_S16384x64_S16384x64_1_0_0_1_n_n none adj
      (Host.dotGeneral dot_S16384x64_S64x64_S16384x64_1_0_0_1_n_n none y w))
    (broadcastInDim S16384x64 ![0, 1] bcast_S1x64_S16384x64_0_1 (broadcastInDim S1x64 ![1] bcast_S64_S1x64_1 b)))

/-- Columns 0–63 of the input. -/
def zsOf (z : FVec F S16384x192 .f32) : FVec F S16384x64 .f32 :=
  extractStridedSlice S16384x64 ![0, 0] z slices_S16384x192_S16384x64_0_0
/-- Columns 64–127 of the input. -/
def zuOf (z : FVec F S16384x192 .f32) : FVec F S16384x64 .f32 :=
  extractStridedSlice S16384x64 ![0, 64] z slices_S16384x192_S16384x64_0_64
/-- Columns 128–191 of the input. -/
def zaOf (z : FVec F S16384x192 .f32) : FVec F S16384x64 .f32 :=
  extractStridedSlice S16384x64 ![0, 128] z slices_S16384x192_S16384x64_0_128

/-- The first layer's 64×64 weight: plane 0 of the stacked weights. -/
def w0Of (Ws : FVec F S2x64x64 .f32) : FVec F S64x64 .f32 :=
  shapeCast S64x64 (extractStridedSlice S1x64x64 ![0, 0, 0] Ws slices_S2x64x64_S1x64x64_0_0_0) shapeCasts_S1x64x64_S64x64
/-- The second layer's 64×64 weight: plane 1 of the stacked weights. -/
def w1Of (Ws : FVec F S2x64x64 .f32) : FVec F S64x64 .f32 :=
  shapeCast S64x64 (extractStridedSlice S1x64x64 ![1, 0, 0] Ws slices_S2x64x64_S1x64x64_1_0_0) shapeCasts_S1x64x64_S64x64
/-- The first layer's bias: row 0 of the stacked biases. -/
def b0Of (bs : FVec F S2x64 .f32) : FVec F S64 .f32 :=
  shapeCast S64 (extractStridedSlice S1x64 ![0, 0] bs slices_S2x64_S1x64_0_0) shapeCasts_S1x64_S64
/-- The second layer's bias: row 1 of the stacked biases. -/
def b1Of (bs : FVec F S2x64 .f32) : FVec F S64 .f32 :=
  shapeCast S64 (extractStridedSlice S1x64 ![1, 0] bs slices_S2x64_S1x64_1_0) shapeCasts_S1x64_S64

/-- A branch: the unit, then the two layers. -/
def branchR (adj : FVec F S16384x16384 .f32) (Ws : FVec F S2x64x64 .f32) (bs : FVec F S2x64 .f32)
    (x : FVec F S16384x64 .f32) : FVec F S16384x64 .f32 :=
  layerR adj (layerR adj (eluR x) (w0Of Ws) (b0Of bs)) (w1Of Ws) (b1Of bs)

/-- The reference's result: the two branches and the third column block side by side, times the
    192×64 output weight, plus the output bias spread over the rows. -/
def refOut (z : FVec F S16384x192 .f32) (adj : FVec F S16384x16384 .f32) (Ws : FVec F S2x64x64 .f32)
    (bs : FVec F S2x64 .f32) (Wl : FVec F S192x64 .f32) (bl : FVec F S64 .f32) : FVec F S16384x64 .f32 :=
  addf
    (Host.dotGeneral dot_S16384x192_S192x64_S16384x64_1_0_0_1_n_n none
      (concatenate S16384x192 1
        [⟨S16384x64, branchR adj Ws bs (zsOf z)⟩, ⟨S16384x64, branchR adj Ws bs (zuOf z)⟩, ⟨S16384x64, zaOf z⟩]
        concatenates_S16384x64_S16384x64_S16384x64_S16384x192_d1)
      Wl)
    (broadcastInDim S16384x64 ![0, 1] bcast_S1x64_S16384x64_0_1 (broadcastInDim S1x64 ![1] bcast_S64_S1x64_1 bl))

end Cert.ReferenceIdeal.Hand

end
-- ==== Proof.RefRead.lean ====
/-
  The reference's pieces read at an entry, on the extended reals: its exponential linear unit is the activation
  act at every entry, and one of its layers at entry (r, q) is
  act (∑ₑ adj(r,e) · (∑ₖ y(e,k) · w(k,q)) + b(q)).
-/
import proofs.«152001_j83820581749460_2_alg».proof.Proof.RefDefs
import proofs.«152001_j83820581749460_2_alg».proof.Proof.Act
import proofs.«152001_j83820581749460_2_alg».proof.Proof.LibDotNN
import Idealize.ShloMosaic.Lib.Pipeline.Value
import Idealize.ShloMosaic.Lib.ValueLayout

noncomputable section

namespace Cert.ReferenceIdeal.Hand

open Cert.ReferenceIdeal Cert.ReferenceIdeal.Gen Cert.Act
open Idealize.ShloMosaic Idealize.ShloMosaic.ValueIdx

/-- The unit is the activation, entry by entry. -/
theorem eluR_apply (x : FVec Ideal S16384x64 .f32) (i : S16384x64.Idx) : eluR x i = act (x i) := by
  unfold eluR
  exact act_guarded' (x i)

/-- The bias spread over the rows, at an entry. -/
theorem biasRows_apply (b : FVec Ideal S64 .f32) (r : Fin 16384) (q : Fin 64) :
    broadcastInDim S16384x64 ![0, 1] Facts₀.bcast_S1x64_S16384x64_0_1 (broadcastInDim S1x64 ![1] Facts₀.bcast_S64_S1x64_1 b) (ix2 r q)
      = b (ix1 q) := by
  rw [broadcastInDim_apply ![0, 1] Facts₀.bcast_S1x64_S16384x64_0_1 _ (ix2 r q) (ix2 (0 : Fin 1) q) (fun a => by
      match a with
      | ⟨0, _⟩ => rfl
      | ⟨1, _⟩ => rfl),
    broadcastInDim_apply ![1] Facts₀.bcast_S64_S1x64_1 b (ix2 (0 : Fin 1) q) (ix1 q) (fun a => by
      match a with
      | ⟨0, _⟩ => rfl)]

/-- One layer at an entry. -/
theorem layerR_apply (adj : FVec Ideal S16384x16384 .f32) (y : FVec Ideal S16384x64 .f32) (w : FVec Ideal S64x64 .f32)
    (b : FVec Ideal S64 .f32) (r : Fin 16384) (q : Fin 64) :
    layerR adj y w b (ix2 r q)
      = act ((∑ e : Fin 16384, adj (ix2 r e) * ∑ k : Fin 64, y (ix2 e k) * w (ix2 k q)) + b (ix1 q)) := by
  unfold layerR
  rw [eluR_apply, addf_apply, biasRows_apply]
  refine congrArg (fun s => act (s + b (ix1 q))) ?_
  refine (Cert.LibDotNN.dotGeneral_apply (M := 16384) (N := 64) (K := 16384)
    Facts₀.dot_S16384x16384_S16384x64_S16384x64_1_0_0_1_n_n_wf none .single adj _ r q).trans ?_
  refine Finset.sum_congr rfl fun e _ => ?_
  refine congrArg (adj (ix2 r e) * ·) ?_
  exact Cert.LibDotNN.dotGeneral_apply (M := 16384) (N := 64) (K := 64)
    Facts₀.dot_S16384x64_S64x64_S16384x64_1_0_0_1_n_n_wf none .single y w e q

end Cert.ReferenceIdeal.Hand

end
-- ==== Proof.Bridge.lean ====
/-
  The two programs compute one function. The kernel program carries both branches side by side, 128 columns wide,
  and multiplies the features by the block-diagonal weight [[W, 0], [0, W]]; the reference runs the two branches one
  after the other with the weight W. Row e of [A | B] against column q of the block-diagonal weight is row e of A
  against column q of W for q < 64, and row e of B against column q − 64 of W otherwise, because every other term
  of the sum has a zero factor; so one kernel layer on [A | B] is the reference's layer on A beside its layer on B.
  The activation is the same function in both spellings, and the closing steps are the same operations on equal
  arrays.
-/
import proofs.«152001_j83820581749460_2_alg».proof.Proof.KIOut
import proofs.«152001_j83820581749460_2_alg».proof.Proof.LayerAlg
import proofs.«152001_j83820581749460_2_alg».proof.Proof.RefRead

noncomputable section

namespace Cert.Bridge

open Cert.KernelIdeal.Hand Cert.ReferenceIdeal.Hand Cert.Act
open Idealize.ShloMosaic Idealize.ShloMosaic.ValueIdx

/-- The host-side spelling of the activation, entry by entry. -/
theorem eluK_apply (x : FVec Ideal Cert.KernelIdeal.S16384x64 .f32) (i : Cert.KernelIdeal.S16384x64.Idx) :
    eluK x i = act (x i) :=
  act_directH (x i)

/-- Both programs' activations are one function. -/
theorem eluK_eq (x : FVec Ideal Cert.KernelIdeal.S16384x64 .f32) : eluK x = eluR x :=
  funext fun i => (eluK_apply x i).trans (eluR_apply x i).symm

/-- Two arrays side by side, as the kernel program concatenates them. -/
abbrev sideBySide (A B : FVec Ideal Cert.KernelIdeal.S16384x64 .f32) : FVec Ideal Cert.KernelIdeal.S16384x128 .f32 :=
  concatenate Cert.KernelIdeal.S16384x128 1 [⟨Cert.KernelIdeal.S16384x64, A⟩, ⟨Cert.KernelIdeal.S16384x64, B⟩]
    Cert.KernelIdeal.Facts₀.concatenates_S16384x64_S16384x64_S16384x128_d1

/-- ONE KERNEL LAYER on [A | B] is the reference's layer on A beside its layer on B. -/
theorem layer_eq (adj : FVec Ideal Cert.KernelIdeal.S16384x16384 .f32) (A B : FVec Ideal Cert.KernelIdeal.S16384x64 .f32)
    (w : FVec Ideal Cert.KernelIdeal.S64x64 .f32) (b : FVec Ideal Cert.KernelIdeal.S64 .f32) :
    layerK adj (sideBySide A B) w b = sideBySide (layerR adj A w b) (layerR adj B w b) := by
  funext j
  obtain ⟨r, q, rfl⟩ : ∃ (r : Fin 16384) (q : Fin 128), j = ix2 r q := ⟨j 0, j 1, eq_ix2 j⟩
  rw [show layerK adj (sideBySide A B) w b (ix2 r q) = gcnAt adj (xwK (sideBySide A B) w) (btileK b) r q from rfl]
  unfold gcnAt
  by_cases hq : q.val < 64
  · have hc : sideBySide (layerR adj A w b) (layerR adj B w b) (ix2 r q) = layerR adj A w b (ix2 r ⟨q.val, hq⟩) :=
      cat_left _ _ r q hq
    have hx : ∀ e : Fin 16384, xwK (sideBySide A B) w (ix2 e q) = ∑ k : Fin 64, A (ix2 e k) * w (ix2 k ⟨q.val, hq⟩) :=
      fun e => xw_apply_left A B w e q hq
    rw [hc, layerR_apply, btile_apply_left b q hq]
    simp only [hx]
  · have hq' : 64 ≤ q.val := Nat.le_of_not_gt hq
    have hc : sideBySide (layerR adj A w b) (layerR adj B w b) (ix2 r q)
        = layerR adj B w b (ix2 r ⟨q.val - 64, by have := q.isLt; omega⟩) := cat_right _ _ r q hq'
    have hx : ∀ e : Fin 16384, xwK (sideBySide A B) w (ix2 e q)
        = ∑ k : Fin 64, B (ix2 e k) * w (ix2 k ⟨q.val - 64, by have := q.isLt; omega⟩) :=
      fun e => xw_apply_right A B w e q hq'
    rw [hc, layerR_apply, btile_apply_right b q hq']
    simp only [hx]

/-- The left half of two arrays side by side. -/
theorem left_half (P Q : FVec Ideal Cert.KernelIdeal.S16384x64 .f32) :
    extractStridedSlice Cert.KernelIdeal.S16384x64 ![0, 0] (sideBySide P Q) Cert.KernelIdeal.Facts₀.slices_S16384x128_S16384x64_0_0 = P := by
  funext j
  obtain ⟨r, q, rfl⟩ : ∃ (r : Fin 16384) (q : Fin 64), j = ix2 r q := ⟨j 0, j 1, eq_ix2 j⟩
  rw [slice2_axis1_eq 0 (sideBySide P Q) Cert.KernelIdeal.Facts₀.slices_S16384x128_S16384x64_0_0 r q]
  exact cat_left_at P Q r ⟨0 + q.val, by have := q.isLt; omega⟩ q (by show q.val = 0 + q.val; omega)

/-- The right half of two arrays side by side. -/
theorem right_half (P Q : FVec Ideal Cert.KernelIdeal.S16384x64 .f32) :
    extractStridedSlice Cert.KernelIdeal.S16384x64 ![0, 64] (sideBySide P Q) Cert.KernelIdeal.Facts₀.slices_S16384x128_S16384x64_0_64 = Q := by
  funext j
  obtain ⟨r, q, rfl⟩ : ∃ (r : Fin 16384) (q : Fin 64), j = ix2 r q := ⟨j 0, j 1, eq_ix2 j⟩
  rw [slice2_axis1_eq 64 (sideBySide P Q) Cert.KernelIdeal.Facts₀.slices_S16384x128_S16384x64_0_64 r q]
  exact cat_right_at P Q r ⟨64 + q.val, by have := q.isLt; omega⟩ q (by show q.val + 64 = 64 + q.val; omega)

/-- THE TWO PROGRAMS' RESULTS ARE ONE FUNCTION of the six arguments. -/
theorem kerOut_eq (z : FVec Ideal Cert.KernelIdeal.S16384x192 .f32) (adj : FVec Ideal Cert.KernelIdeal.S16384x16384 .f32)
    (ws : FVec Ideal Cert.KernelIdeal.S2x64x64 .f32) (bs : FVec Ideal Cert.KernelIdeal.S2x64 .f32)
    (wl : FVec Ideal Cert.KernelIdeal.S192x64 .f32) (bl : FVec Ideal Cert.KernelIdeal.S64 .f32) :
    kerOut z adj ws bs wl bl = refOut z adj ws bs wl bl := by
  have h0 : x0K z = sideBySide (eluR (zsOf z)) (eluR (zuOf z)) := by
    show sideBySide (eluK (zsK z)) (eluK (zuK z)) = _
    rw [eluK_eq, eluK_eq]; rfl
  have h2 : layerK adj (layerK adj (x0K z) (w0K ws) (b0K bs)) (w1K ws) (b1K bs)
      = sideBySide (branchR adj ws bs (zsOf z)) (branchR adj ws bs (zuOf z)) := by
    rw [h0, layer_eq, layer_eq]; rfl
  unfold kerOut
  rw [h2]
  show Idealize.ShloMosaic.addf (Host.dotGeneral _ _ (concatenate _ 1 [⟨_, extractStridedSlice _ ![0, 0] (sideBySide _ _) _⟩,
      ⟨_, extractStridedSlice _ ![0, 64] (sideBySide _ _) _⟩, ⟨_, _⟩] _) wl) _ = _
  rw [left_half, right_half]
  rfl

end Cert.Bridge

end
-- ==== Proof.RefRun.lean ====
import proofs.«152001_j83820581749460_2_alg».proof.Proof.Gen.ReferenceIdeal
import proofs.«152001_j83820581749460_2_alg».proof.Proof.RefDefs
import Idealize.ShloMosaic.Lib.StableHlo.Run

/-!
# The reference's run

The reference program is a straight line of array operations: its entry function with the three
helper functions (the exponential linear unit and the two selections it calls) unfolded at their
six call sites. This module lists those operations in order, shows the entry function equal to
running the list, and reads the final contents of the result buffer back as the composition
refOut of RefDefs applied to the six arguments' initial contents; the arguments themselves
are left as they were.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The entry function's 134 operations in order, the calls unfolded: three column slices; then, per
    use of the unit, its fifteen operations (three zero constants and a one, each spread over the
    array; two comparisons with zero; the inner selection, its zero passed through a conversion that
    changes nothing; expm1; the product with one; the outer selection); per layer the weight's and the
    bias's slice and reshape, the two matrix products, the bias spread twice and the sum; at the end the
    concatenation of the two branches with the third block, the output product and the output bias. -/
abbrev ops : List (HloOp τ sig (Elt F)) :=
  [
    unary main_arg0 main_v0 ((extractStridedSlice S16384x64 ![0, 0] · slices_S16384x192_S16384x64_0_0) : (⟨S16384x192, .f32⟩ : BufTy).Contents (Elt F) → (⟨S16384x64, .f32⟩ : BufTy).Contents (Elt F)),
    unary main_arg0 main_v1 ((extractStridedSlice S16384x64 ![0, 64] · slices_S16384x192_S16384x64_0_64) : (⟨S16384x192, .f32⟩ : BufTy).Contents (Elt F) → (⟨S16384x64, .f32⟩ : BufTy).Contents (Elt F)),
    unary main_arg0 main_v2 ((extractStridedSlice S16384x64 ![0, 128] · slices_S16384x192_S16384x64_0_128) : (⟨S16384x192, .f32⟩ : BufTy).Contents (Elt F) → (⟨S16384x64, .f32⟩ : BufTy).Contents (Elt F)),
    TRef.nullary main_call0.cst (constant S_ .f32 0x00000000#32),
    TRef.unary main_call0.cst main_call0.v0 (broadcastInDim S16384x64 ![] bcast_S_S16384x64),
    TRef.binary (.of main_v0) main_call0.v0 main_call0.v1 (cmpf .ogt),
    TRef.nullary main_call0.cst_0 (constant S_ .f32 0x00000000#32),
    TRef.unary main_call0.cst_0 main_call0.v2 (broadcastInDim S16384x64 ![] bcast_S_S16384x64),
    TRef.binary (.of main_v0) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S16384x64 ![] bcast_S_S16384x64),
    TRef.ternary main_call0.v3 main_call0.call0.v1 (.of main_v0) main_call0.call0.v2 select,
    TRef.unary main_call0.call0.v2 main_call0.v5 Host.expm1,
    TRef.nullary main_call0.cst_2 (constant S_ .f32 0x3F800000#32),
    TRef.unary main_call0.cst_2 main_call0.v6 (broadcastInDim S16384x64 ![] bcast_S_S16384x64),
    TRef.binary main_call0.v6 main_call0.v5 main_call0.v7 mulf,
    TRef.ternary main_call0.v1 (.of main_v0) main_call0.v7 main_call0.call1.v0 select,
    unary main_arg2 main_v4 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v4 main_v5 rfl shapeCasts_S1x64x64_S64x64,
    unary main_arg3 main_v6 ((extractStridedSlice S1x64 ![0, 0] · slices_S2x64_S1x64_0_0) : (⟨S2x64, .f32⟩ : BufTy).Contents (Elt F) → (⟨S1x64, .f32⟩ : BufTy).Contents (Elt F)),
    reshape main_v6 main_v7 rfl shapeCasts_S1x64_S64,
    binary main_v3 main_v5 main_v8 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    binary main_arg1 main_v8 main_v9 ((fun l r => Host.dotGeneral dot_S16384x16384_S16384x64_S16384x64_1_0_0_1_n_n none l r) : (⟨S16384x16384, .f32⟩ : BufTy).Contents (Elt F) → (⟨S16384x64, .f32⟩ : BufTy).Contents (Elt F) → (⟨S16384x64, .f32⟩ : BufTy).Contents (Elt F)),
    unary main_v7 main_v10 (broadcastInDim S1x64 ![1] bcast_S64_S1x64_1 : (⟨S64, .f32⟩ : BufTy).Contents (Elt F) → (⟨S1x64, .f32⟩ : BufTy).Contents (Elt F)),
    unary main_v10 main_v11 (broadcastInDim S16384x64 ![0, 1] bcast_S1x64_S16384x64_0_1 : (⟨S1x64, .f32⟩ : BufTy).Contents (Elt F) → (⟨S16384x64, .f32⟩ : BufTy).Contents (Elt F)),
    binary main_v9 main_v11 main_v12 (addf : (⟨S16384x64, .f32⟩ : BufTy).Contents (Elt F) → (⟨S16384x64, .f32⟩ : BufTy).Contents (Elt F) → (⟨S16384x64, .f32⟩ : BufTy).Contents (Elt F)),
    TRef.nullary main_call1.cst (constant S_ .f32 0x00000000#32),
    TRef.unary main_call1.cst main_call1.v0 (broadcastInDim S16384x64 ![] bcast_S_S16384x64),
    TRef.binary (.of main_v12) main_call1.v0 main_call1.v1 (cmpf .ogt),
    TRef.nullary main_call1.cst_0 (constant S_ .f32 0x00000000#32),
    TRef.unary main_call1.cst_0 main_call1.v2 (broadcastInDim S16384x64 ![] bcast_S_S16384x64),
    TRef.binary (.of main_v12) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S16384x64 ![] bcast_S_S16384x64),
    TRef.ternary main_call1.v3 main_call1.call0.v1 (.of main_v12) main_call1.call0.v2 select,
    TRef.unary main_call1.call0.v2 main_call1.v5 Host.expm1,
    TRef.nullary main_call1.cst_2 (constant S_ .f32 0x3F800000#32),
    TRef.unary main_call1.cst_2 main_call1.v6 (broadcastInDim S16384x64 ![] bcast_S_S16384x64),
    TRef.binary main_call1.v6 main_call1.v5 main_call1.v7 mulf,
    TRef.ternary main_call1.v1 (.of main_v12) main_call1.v7 main_call1.call1.v0 select,
    TRef.nullary main_call2.cst (constant S_ .f32 0x00000000#32),
    TRef.unary main_call2.cst main_call2.v0 (broadcastInDim S16384x64 ![] bcast_S_S16384x64),
    TRef.binary (.of main_v1) main_call2.v0 main_call2.v1 (cmpf .ogt),
    TRef.nullary main_call2.cst_0 (constant S_ .f32 0x00000000#32),
    TRef.unary main_call2.cst_0 main_call2.v2 (broadcastInDim S16384x64 ![] bcast_S_S16384x64),
    TRef.binary (.of main_v1) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S16384x64 ![] bcast_S_S16384x64),
    TRef.ternary main_call2.v3 main_call2.call0.v1 (.of main_v1) main_call2.call0.v2 select,
    TRef.unary main_call2.call0.v2 main_call2.v5 Host.expm1,
    TRef.nullary main_call2.cst_2 (constant S_ .f32 0x3F800000#32),
    TRef.unary main_call2.cst_2 main_call2.v6 (broadcastInDim S16384x64 ![] bcast_S_S16384x64),
    TRef.binary main_call2.v6 main_call2.v5 main_call2.v7 mulf,
    TRef.ternary main_call2.v1 (.of main_v1) main_call2.v7 main_call2.call1.v0 select,
    unary main_arg2 main_v15 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v15 main_v16 rfl shapeCasts_S1x64x64_S64x64,
    unary main_arg3 main_v17 ((extractStridedSlice S1x64 ![0, 0] · slices_S2x64_S1x64_0_0) : (⟨S2x64, .f32⟩ : BufTy).Contents (Elt F) → (⟨S1x64, .f32⟩ : BufTy).Contents (Elt F)),
    reshape main_v17 main_v18 rfl shapeCasts_S1x64_S64,
    binary main_v14 main_v16 main_v19 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    binary main_arg1 main_v19 main_v20 ((fun l r => Host.dotGeneral dot_S16384x16384_S16384x64_S16384x64_1_0_0_1_n_n none l r) : (⟨S16384x16384, .f32⟩ : BufTy).Contents (Elt F) → (⟨S16384x64, .f32⟩ : BufTy).Contents (Elt F) → (⟨S16384x64, .f32⟩ : BufTy).Contents (Elt F)),
    unary main_v18 main_v21 (broadcastInDim S1x64 ![1] bcast_S64_S1x64_1 : (⟨S64, .f32⟩ : BufTy).Contents (Elt F) → (⟨S1x64, .f32⟩ : BufTy).Contents (Elt F)),
    unary main_v21 main_v22 (broadcastInDim S16384x64 ![0, 1] bcast_S1x64_S16384x64_0_1 : (⟨S1x64, .f32⟩ : BufTy).Contents (Elt F) → (⟨S16384x64, .f32⟩ : BufTy).Contents (Elt F)),
    binary main_v20 main_v22 main_v23 (addf : (⟨S16384x64, .f32⟩ : BufTy).Contents (Elt F) → (⟨S16384x64, .f32⟩ : BufTy).Contents (Elt F) → (⟨S16384x64, .f32⟩ : BufTy).Contents (Elt F)),
    TRef.nullary main_call3.cst (constant S_ .f32 0x00000000#32),
    TRef.unary main_call3.cst main_call3.v0 (broadcastInDim S16384x64 ![] bcast_S_S16384x64),
    TRef.binary (.of main_v23) main_call3.v0 main_call3.v1 (cmpf .ogt),
    TRef.nullary main_call3.cst_0 (constant S_ .f32 0x00000000#32),
    TRef.unary main_call3.cst_0 main_call3.v2 (broadcastInDim S16384x64 ![] bcast_S_S16384x64),
    TRef.binary (.of main_v23) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S16384x64 ![] bcast_S_S16384x64),
    TRef.ternary main_call3.v3 main_call3.call0.v1 (.of main_v23) main_call3.call0.v2 select,
    TRef.unary main_call3.call0.v2 main_call3.v5 Host.expm1,
    TRef.nullary main_call3.cst_2 (constant S_ .f32 0x3F800000#32),
    TRef.unary main_call3.cst_2 main_call3.v6 (broadcastInDim S16384x64 ![] bcast_S_S16384x64),
    TRef.binary main_call3.v6 main_call3.v5 main_call3.v7 mulf,
    TRef.ternary main_call3.v1 (.of main_v23) main_call3.v7 main_call3.call1.v0 select,
    unary main_arg2 main_v25 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v25 main_v26 rfl shapeCasts_S1x64x64_S64x64,
    unary main_arg3 main_v27 ((extractStridedSlice S1x64 ![1, 0] · slices_S2x64_S1x64_1_0) : (⟨S2x64, .f32⟩ : BufTy).Contents (Elt F) → (⟨S1x64, .f32⟩ : BufTy).Contents (Elt F)),
    reshape main_v27 main_v28 rfl shapeCasts_S1x64_S64,
    binary main_v13 main_v26 main_v29 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    binary main_arg1 main_v29 main_v30 ((fun l r => Host.dotGeneral dot_S16384x16384_S16384x64_S16384x64_1_0_0_1_n_n none l r) : (⟨S16384x16384, .f32⟩ : BufTy).Contents (Elt F) → (⟨S16384x64, .f32⟩ : BufTy).Contents (Elt F) → (⟨S16384x64, .f32⟩ : BufTy).Contents (Elt F)),
    unary main_v28 main_v31 (broadcastInDim S1x64 ![1] bcast_S64_S1x64_1 : (⟨S64, .f32⟩ : BufTy).Contents (Elt F) → (⟨S1x64, .f32⟩ : BufTy).Contents (Elt F)),
    unary main_v31 main_v32 (broadcastInDim S16384x64 ![0, 1] bcast_S1x64_S16384x64_0_1 : (⟨S1x64, .f32⟩ : BufTy).Contents (Elt F) → (⟨S16384x64, .f32⟩ : BufTy).Contents (Elt F)),
    binary main_v30 main_v32 main_v33 (addf : (⟨S16384x64, .f32⟩ : BufTy).Contents (Elt F) → (⟨S16384x64, .f32⟩ : BufTy).Contents (Elt F) → (⟨S16384x64, .f32⟩ : BufTy).Contents (Elt F)),
    TRef.nullary main_call4.cst (constant S_ .f32 0x00000000#32),
    TRef.unary main_call4.cst main_call4.v0 (broadcastInDim S16384x64 ![] bcast_S_S16384x64),
    TRef.binary (.of main_v33) main_call4.v0 main_call4.v1 (cmpf .ogt),
    TRef.nullary main_call4.cst_0 (constant S_ .f32 0x00000000#32),
    TRef.unary main_call4.cst_0 main_call4.v2 (broadcastInDim S16384x64 ![] bcast_S_S16384x64),
    TRef.binary (.of main_v33) main_call4.v2 main_call4.v3 (cmpf .ogt),
    TRef.nullary main_call4.cst_1 (constant S_ .f32 0x00000000#32),
    TRef.unary main_call4.cst_1 main_call4.call0.v0 id,
    TRef.unary main_call4.call0.v0 main_call4.call0.v1 (broadcastInDim S16384x64 ![] bcast_S_S16384x64),
    TRef.ternary main_call4.v3 main_call4.call0.v1 (.of main_v33) main_call4.call0.v2 select,
    TRef.unary main_call4.call0.v2 main_call4.v5 Host.expm1,
    TRef.nullary main_call4.cst_2 (constant S_ .f32 0x3F800000#32),
    TRef.unary main_call4.cst_2 main_call4.v6 (broadcastInDim S16384x64 ![] bcast_S_S16384x64),
    TRef.binary main_call4.v6 main_call4.v5 main_call4.v7 mulf,
    TRef.ternary main_call4.v1 (.of main_v33) main_call4.v7 main_call4.call1.v0 select,
    unary main_arg2 main_v35 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v35 main_v36 rfl shapeCasts_S1x64x64_S64x64,
    unary main_arg3 main_v37 ((extractStridedSlice S1x64 ![1, 0] · slices_S2x64_S1x64_1_0) : (⟨S2x64, .f32⟩ : BufTy).Contents (Elt F) → (⟨S1x64, .f32⟩ : BufTy).Contents (Elt F)),
    reshape main_v37 main_v38 rfl shapeCasts_S1x64_S64,
    binary main_v24 main_v36 main_v39 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    binary main_arg1 main_v39 main_v40 ((fun l r => Host.dotGeneral dot_S16384x16384_S16384x64_S16384x64_1_0_0_1_n_n none l r) : (⟨S16384x16384, .f32⟩ : BufTy).Contents (Elt F) → (⟨S16384x64, .f32⟩ : BufTy).Contents (Elt F) → (⟨S16384x64, .f32⟩ : BufTy).Contents (Elt F)),
    unary main_v38 main_v41 (broadcastInDim S1x64 ![1] bcast_S64_S1x64_1 : (⟨S64, .f32⟩ : BufTy).Contents (Elt F) → (⟨S1x64, .f32⟩ : BufTy).Contents (Elt F)),
    unary main_v41 main_v42 (broadcastInDim S16384x64 ![0, 1] bcast_S1x64_S16384x64_0_1 : (⟨S1x64, .f32⟩ : BufTy).Contents (Elt F) → (⟨S16384x64, .f32⟩ : BufTy).Contents (Elt F)),
    binary main_v40 main_v42 main_v43 (addf : (⟨S16384x64, .f32⟩ : BufTy).Contents (Elt F) → (⟨S16384x64, .f32⟩ : BufTy).Contents (Elt F) → (⟨S16384x64, .f32⟩ : BufTy).Contents (Elt F)),
    TRef.nullary main_call5.cst (constant S_ .f32 0x00000000#32),
    TRef.unary main_call5.cst main_call5.v0 (broadcastInDim S16384x64 ![] bcast_S_S16384x64),
    TRef.binary (.of main_v43) main_call5.v0 main_call5.v1 (cmpf .ogt),
    TRef.nullary main_call5.cst_0 (constant S_ .f32 0x00000000#32),
    TRef.unary main_call5.cst_0 main_call5.v2 (broadcastInDim S16384x64 ![] bcast_S_S16384x64),
    TRef.binary (.of main_v43) main_call5.v2 main_call5.v3 (cmpf .ogt),
    TRef.nullary main_call5.cst_1 (constant S_ .f32 0x00000000#32),
    TRef.unary main_call5.cst_1 main_call5.call0.v0 id,
    TRef.unary main_call5.call0.v0 main_call5.call0.v1 (broadcastInDim S16384x64 ![] bcast_S_S16384x64),
    TRef.ternary main_call5.v3 main_call5.call0.v1 (.of main_v43) main_call5.call0.v2 select,
    TRef.unary main_call5.call0.v2 main_call5.v5 Host.expm1,
    TRef.nullary main_call5.cst_2 (constant S_ .f32 0x3F800000#32),
    TRef.unary main_call5.cst_2 main_call5.v6 (broadcastInDim S16384x64 ![] bcast_S_S16384x64),
    TRef.binary main_call5.v6 main_call5.v5 main_call5.v7 mulf,
    TRef.ternary main_call5.v1 (.of main_v43) main_call5.v7 main_call5.call1.v0 select,
    nary ![main_v34, main_v44, main_v2] main_v45 (fun u => concatenate S16384x192 1 [⟨S16384x64, u 0⟩, ⟨S16384x64, u 1⟩, ⟨S16384x64, u 2⟩] concatenates_S16384x64_S16384x64_S16384x64_S16384x192_d1),
    binary main_v45 main_arg4 main_v46 ((fun l r => Host.dotGeneral dot_S16384x192_S192x64_S16384x64_1_0_0_1_n_n none l r) : (⟨S16384x192, .f32⟩ : BufTy).Contents (Elt F) → (⟨S192x64, .f32⟩ : BufTy).Contents (Elt F) → (⟨S16384x64, .f32⟩ : BufTy).Contents (Elt F)),
    unary main_arg5 main_v47 (broadcastInDim S1x64 ![1] bcast_S64_S1x64_1 : (⟨S64, .f32⟩ : BufTy).Contents (Elt F) → (⟨S1x64, .f32⟩ : BufTy).Contents (Elt F)),
    unary main_v47 main_v48 (broadcastInDim S16384x64 ![0, 1] bcast_S1x64_S16384x64_0_1 : (⟨S1x64, .f32⟩ : BufTy).Contents (Elt F) → (⟨S16384x64, .f32⟩ : BufTy).Contents (Elt F)),
    binary main_v46 main_v48 main_v49 (addf : (⟨S16384x64, .f32⟩ : BufTy).Contents (Elt F) → (⟨S16384x64, .f32⟩ : BufTy).Contents (Elt F) → (⟨S16384x64, .f32⟩ : BufTy).Contents (Elt F)) ]

-- one hundred and thirty-four binds re-associated: the rewrite under the chain recurses once per statement
set_option maxRecDepth 4096 in
/-- The entry function is that straight line: the helper functions unfolded at their calls, both sides
    are one chain of steps once sequencing is reassociated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., unary_bufs_sub .., unary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    unary_bufs_sub .., reshape_bufs_sub .., unary_bufs_sub .., reshape_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., unary_bufs_sub .., reshape_bufs_sub .., unary_bufs_sub ..,
    reshape_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., unary_bufs_sub .., reshape_bufs_sub .., unary_bufs_sub ..,
    reshape_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., unary_bufs_sub .., reshape_bufs_sub .., unary_bufs_sub ..,
    reshape_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., nary_bufs_sub .., binary_bufs_sub .., unary_bufs_sub ..,
    unary_bufs_sub .., binary_bufs_sub ..⟩

/-- From any memory with zero counters every weakly fair execution of the entry function terminates, and
    every final state has each buffer at the fold of the operations over the initial contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- An operation of three operands given as a literal family leaves its result buffer at its function of the
    three operands' contents, each read at its own buffer. -/
theorem nary3_result' {τ' : Topo} {sig' : RefSig} {Val : EltTy → Type} {x a b y : Ref sig' .tc}
    (f : ((k : Fin 3) → ((![x, a, b] : Fin 3 → Ref sig' .tc) k).ty.Contents Val) → y.ty.Contents Val) (hxs hy)
    (G : Valuation τ' sig' Val) :
    (nary (τ := τ') ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The fold read at one buffer, in one pass: each operation's result at its own buffer is its function's value,
    at any other buffer what was there. -/
macro "fold_results" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

set_option maxRecDepth 8192 in
theorem arg0_eq (V : Valuation τ sig (Elt F)) : after ops V (main_arg0 : DevRef τ sig) = V (main_arg0 : DevRef τ sig) := by
  fold_results

-- the fold is deep (one hundred and thirty-four results) and the composed term shares each unit's argument three times
set_option maxRecDepth 8192 in
set_option maxHeartbeats 1600000 in
/-- The fold at the result buffer is the composition refOut of the six arguments' contents: each operation's
    result read at its own buffer is its function of its operands' contents, and the term so composed is the
    definition unfolded (the typed buffers' transports are the identity at these literal buffers). -/
theorem out_eq (V : Valuation τ sig (Elt F)) :
    after ops V (main_v49 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  fold_results
  rfl

set_option maxRecDepth 8192 in
theorem arg1_eq (V : Valuation τ sig (Elt F)) : after ops V (main_arg1 : DevRef τ sig) = V (main_arg1 : DevRef τ sig) := by
  fold_results

set_option maxRecDepth 8192 in
theorem arg2_eq (V : Valuation τ sig (Elt F)) : after ops V (main_arg2 : DevRef τ sig) = V (main_arg2 : DevRef τ sig) := by
  fold_results

set_option maxRecDepth 8192 in
theorem arg3_eq (V : Valuation τ sig (Elt F)) : after ops V (main_arg3 : DevRef τ sig) = V (main_arg3 : DevRef τ sig) := by
  fold_results

set_option maxRecDepth 8192 in
theorem arg4_eq (V : Valuation τ sig (Elt F)) : after ops V (main_arg4 : DevRef τ sig) = V (main_arg4 : DevRef τ sig) := by
  fold_results

set_option maxRecDepth 8192 in
theorem arg5_eq (V : Valuation τ sig (Elt F)) : after ops V (main_arg5 : DevRef τ sig) = V (main_arg5 : DevRef τ sig) := by
  fold_results

/-- On the device, for any float values, from any memory with zero counters: every weakly fair execution of the
    entry function terminates with the result buffer at refOut of the six arguments' initial contents and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49)
          = refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v49).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_main m ρ)

end Cert.ReferenceIdeal.Hand

end
-- ==== Proof.lean ====
/-
  The certificate of the two-layer graph-convolution kernel against its jnp reference.

  The kernel program runs both branches of the network side by side: it activates the first two 64-column blocks
  of z (x ↦ x for x > 0, eˣ − 1 otherwise), concatenates them to 128 columns, and per layer multiplies the
  features by the block-diagonal weight [[W, 0], [0, W]], launches a Pallas kernel that multiplies a 128-row band
  of the adjacency matrix by that product, adds the doubled bias row and activates, 128 grid points tiling the
  16384 rows; a closing concatenation with the third block of z, a product with the output weight and the output
  bias follow. The reference runs the two branches one after the other with the weight W itself.

  The frames: each launch's body is four whole-block loads and one whole-block store, run symbolically once at a
  generic grid point; the program is then the library's chain of host stretches and launches, and every argument
  array is read back unchanged. The reference is a straight line of host operations.

  The values, on the extended reals: a launch leaves act (∑ₑ adj(r,e)·x(e,q) + b(q)) at entry (r, q) of its result;
  row e of [A | B] against column q of the block-diagonal weight is row e of A (or of B) against the matching column
  of W, the other half of the sum having a zero factor in every term (x · 0 = 0 for every extended real, so no
  finiteness is used); hence a kernel layer on [A | B] is the reference's layer on A beside its layer on B, the two
  spellings of the activation are one function, and the closing steps are the same operations on equal arrays.
  A change of float format is the identity here, and a product's precision annotation does not enter its value.
-/
import proofs.«152001_j83820581749460_2_alg».proof.Defs
import proofs.«152001_j83820581749460_2_alg».proof.Proof.Gen.Kernel
import proofs.«152001_j83820581749460_2_alg».proof.Proof.Gen.KernelIdeal
import proofs.«152001_j83820581749460_2_alg».proof.Proof.Gen.ReferenceIdeal
import proofs.«152001_j83820581749460_2_alg».proof.Proof.Gen.Pre_finite_inputs
import proofs.«152001_j83820581749460_2_alg».proof.Proof.KFrame
import proofs.«152001_j83820581749460_2_alg».proof.Proof.KIValue
import proofs.«152001_j83820581749460_2_alg».proof.Proof.Bridge
import proofs.«152001_j83820581749460_2_alg».proof.Proof.RefRun

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

/-- From memories agreeing on the six arguments both programs end with the same result: the kernel program's
    result array holds `kerOut` of the arguments, the reference's `refOut` of them, and the two are one function. -/
theorem algebraic : Cert.algebraic_KernelIdeal_ReferenceIdeal := by
  intro m ρ m' ρ' _ hagree
  refine ⟨fun c => Cert.KernelIdeal.Hand.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨?_, ?_, ?_, ?_, ?_, ?_, ?_⟩)
      (Cert.KernelIdeal.Hand.run_all (F := Ideal) m ρ)
    · exact (h c Cert.KernelIdeal.main_v44 (by decide)).trans (Cert.KernelIdeal.Hand.W13_v44 m c)
    · exact (h c Cert.KernelIdeal.main_arg0 (by decide)).trans (Cert.KernelIdeal.Hand.W13_main_arg0 m c)
    · exact (h c Cert.KernelIdeal.main_arg1 (by decide)).trans (Cert.KernelIdeal.Hand.W13_main_arg1 m c)
    · exact (h c Cert.KernelIdeal.main_arg2 (by decide)).trans (Cert.KernelIdeal.Hand.W13_main_arg2 m c)
    · exact (h c Cert.KernelIdeal.main_arg3 (by decide)).trans (Cert.KernelIdeal.Hand.W13_main_arg3 m c)
    · exact (h c Cert.KernelIdeal.main_arg4 (by decide)).trans (Cert.KernelIdeal.Hand.W13_main_arg4 m c)
    · exact (h c Cert.KernelIdeal.main_arg5 (by decide)).trans (Cert.KernelIdeal.Hand.W13_main_arg5 m c)
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2.1, (hagree c).2.2.2.1, (hagree c).2.2.2.2.1, (hagree c).2.2.2.2.2]
    exact (Cert.Bridge.kerOut_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
